-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S100000 : Shape := ⟨1, ![100000]⟩
abbrev S1024x3 : Shape := ⟨2, ![1024, 3]⟩
abbrev S100x64 : Shape := ⟨2, ![100, 64]⟩
abbrev S64 : Shape := ⟨1, ![64]⟩
abbrev S64x64 : Shape := ⟨2, ![64, 64]⟩
abbrev S3x64 : Shape := ⟨2, ![3, 64]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S3x64 : S_.BroadcastsInDim S3x64 (![] : Fin 0 → Fin S3x64.rank)
  reducesTo_S3x64_S_d0_1 : S3x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64x1 .f32) (main_arg15 : FVec F S1 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg14
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg9 : FVec F S64 .f32) (main_arg10 : FVec F S64x64 .f32) (main_arg11 : FVec F S64 .f32) (main_arg12 : FVec F S128x64 .f32) (main_arg13 : FVec F S64 .f32) (main_arg14 : FVec F S64x1 .f32) (main_arg15 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128x64 .f32 := Host.absf main_arg12
  let main_cst_18 : FVec F S_ .f32 := constant S_ .f32 0x7F800000#32
  let main_v50 : FVec F S128x64 .f32 := broadcastInDim S128x64 ![] bcast_S_S128x64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S3x64 .f32) (main_arg9 : FVec F S64 .f32) (main_arg10 : FVec F S64x64 .f32) (main_arg11 : FVec F S64 .f32) (main_arg12 : FVec F S128x64 .f32) (main_arg13 : FVec F S64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x100 .f32) (main_arg1 : IVec S2x1600000 32) (main_arg2 : IVec S100000 32) (main_arg3 : FVec F S1024x3 .f32) (main_arg4 : FVec F S100x64 .f32) (main_arg5 : FVec F S64 .f32) (main_arg6 : FVec F S64x64 .f32) (main_arg7 : FVec F S64 .f32) (main_arg8 : FVec F S3x64 .f32) (main_arg9 : FVec F S64 .f32) (main_arg10 : FVec F S64x64 .f32) (main_arg11 : FVec F S64 .f32) (main_arg12 : FVec F S128x64 .f32) (main_arg13 : FVec F S64 .f32) (main_arg14 : FVec F S64x1 .f32) (main_arg15 : FVec F S1 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1024x3 .f32 := Host.absf main_arg3
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x100 : Shape := ⟨2, ![100000, 100]⟩
abbrev S2x1600000 : Shape := ⟨2, ![2, 1600000]⟩
abbrev S100000 : Shape := ⟨1, ![100000]⟩
abbrev S1024x3 : Shape := ⟨2, ![1024, 3]⟩
abbrev S100x64 : Shape := ⟨2, ![100, 64]⟩
abbrev S64 : Shape := ⟨1, ![64]⟩
abbrev S64x64 : Shape := ⟨2, ![64, 64]⟩
abbrev S3x64 : Shape := ⟨2, ![3, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x100 : Shape := ⟨2, ![5000, 100]⟩
abbrev S5000x64 : Shape := ⟨2, ![5000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1x1 : Shape := ⟨2, ![1, 1]⟩
abbrev S1024x128 : Shape := ⟨2, ![1024, 128]⟩

abbrev nBuf : Space → Nat
  | .hbm => 115
  | .vmem => 21
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S100000, .i32⟩
  | .hbm, ⟨3, _⟩ => ⟨S1024x3, .f32⟩
  | .hbm, ⟨4, _⟩ => ⟨S100x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S100000, .i32⟩
  | .hbm, ⟨21, _⟩ => ⟨S1700000, .i32⟩
  | .hbm, ⟨22, _⟩ => ⟨S1700000, .i32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S1700000x1, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S1024x64, .f32⟩
  | .hbm, ⟨96, _⟩ => ⟨S100000x1, .i32⟩
  | .hbm, ⟨97, _⟩ => ⟨S1024x64, .f32⟩
  | .hbm, ⟨98, _⟩ => ⟨S_, .f32⟩
  | .hbm, ⟨99, _⟩ => ⟨S100000, .f32⟩
  | .hbm, ⟨100, _⟩ => ⟨S_, .f32⟩
  | .hbm, ⟨101, _⟩ => ⟨S1024, .f32⟩
  | .hbm, ⟨102, _⟩ => ⟨S100000x1, .i32⟩
  | .hbm, ⟨103, _⟩ => ⟨S1024, .f32⟩
  | .hbm, ⟨104, _⟩ => ⟨S_, .f32⟩
  | .hbm, ⟨105, _⟩ => ⟨S1024, .f32⟩
  | .hbm, ⟨106, _⟩ => ⟨S1024, .f32⟩
  | .hbm, ⟨107, _⟩ => ⟨S1024x1, .f32⟩
  | .hbm, ⟨108, _⟩ => ⟨S1024x64, .f32⟩
  | .hbm, ⟨109, _⟩ => ⟨S1024x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S1x1, .f32⟩
  | .hbm, ⟨114, _⟩ => ⟨S1024x1, .f32⟩
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S1024x3, .f32⟩
  | .local _ .vmem, ⟨11, _⟩ => ⟨S1024x64, .f32⟩
  | .local _ .vmem, ⟨12, _⟩ => ⟨S3x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S128x64, .f32⟩
  | .local _ .vmem, ⟨17, _⟩ => ⟨S1x64, .f32⟩
  | .local _ .vmem, ⟨18, _⟩ => ⟨S64x1, .f32⟩
  | .local _ .vmem, ⟨19, _⟩ => ⟨S1x1, .f32⟩
  | .local _ .vmem, ⟨20, _⟩ => ⟨S1024x1, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call0_cst : Ref sig .tc := ⟨.hbm, 71, rfl⟩
abbrev main_call0_v0 : Ref sig .tc := ⟨.hbm, 72, rfl⟩
abbrev main_v45 : Ref sig .tc := ⟨.hbm, 73, rfl⟩
abbrev main_v46 : Ref sig .tc := ⟨.hbm, 74, rfl⟩
abbrev main_c_8 : Ref sig .tc := ⟨.hbm, 75, rfl⟩
abbrev main_v47 : Ref sig .tc := ⟨.hbm, 76, rfl⟩
abbrev main_v48 : Ref sig .tc := ⟨.hbm, 77, rfl⟩
abbrev main_c_9 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_11 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_cst_13 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem9_0 : DmaSem sig := 19
abbrev cc2_sem10_0 : DmaSem sig := 20

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S3x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  shapeCasts_S64_S1x64 : S64.ShapeCasts S1x64
  shapeCasts_S1_S1x1 : S1.ShapeCasts S1x1
  inb_S1024x3_S1024x3_0_0 : ∀ a, (![0, 0] : Fin 2 → Nat) a + S1024x3.size a ≤ S1024x3.size a
  h_S1024x3 : 0 < S1024x3.numel
  inb_S3x64_S3x64_0_0 : ∀ a, (![0, 0] : Fin 2 → Nat) a + S3x64.size a ≤ S3x64.size a
  h_S3x64 : 0 < S3x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  concatenates_S1024x64_S1024x64_S1024x128_d1 : Shape.Concatenates [S1024x64, S1024x64] S1024x128 1
  inb_S128x64_S128x64_0_0 : ∀ a, (![0, 0] : Fin 2 → Nat) a + S128x64.size a ≤ S128x64.size a
  h_S128x64 : 0 < S128x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x100_S100x64_S5000x64_1_0_0_1_n_n_wf : DotDims.WF S5000x100 S100x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x3_S3x64_S1024x64_1_0_0_1_n_n_wf : DotDims.WF S1024x3 S3x64 S1024x64 [1] [0] [0] [1] [] []
  dot_S1024x64_S64x64_S1024x64_1_0_0_1_n_n_wf : DotDims.WF S1024x64 S64x64 S1024x64 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x3.size a ≤ S1024x3.size a
  hwx2_0 : ∀ i : grid2.Coords, EltTy.bits .f32 = 32 ∨ (Rect.block (s := S1024x3) S1024x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S1024x64.size a
  hwx2_1 : ∀ i : grid2.Coords, EltTy.bits .f32 = 32 ∨ (Rect.block (s := S1024x64) S1024x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64.size a ≤ S3x64.size a
  hwx2_2 : ∀ i : grid2.Coords, EltTy.bits .f32 = 32 ∨ (Rect.block (s := S3x64) S3x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x1.size a ≤ S64x1.size a
  hwx2_8 : ∀ i : grid2.Coords, EltTy.bits .f32 = 32 ∨ (Rect.block (s := S64x1) S64x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x1.size a ≤ S1x1.size a
  hwx2_9 : ∀ i : grid2.Coords, EltTy.bits .f32 = 32 ∨ (Rect.block (s := S1x1) S1x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1024x1.size a ≤ S1024x1.size a
  hwx2_10 : ∀ i : grid2.Coords, EltTy.bits .f32 = 32 ∨ (Rect.block (s := S1024x1) S1024x1.size (cc2_transform_10 i) (hinb2_10 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg3) S1024x3.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v74) S1024x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S3x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v76) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S64x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v78) S1x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v79) S1024x1.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S100000 : Shape := ⟨1, ![100000]⟩
abbrev S1024x3 : Shape := ⟨2, ![1024, 3]⟩
abbrev S100x64 : Shape := ⟨2, ![100, 64]⟩
abbrev S64 : Shape := ⟨1, ![64]⟩
abbrev S64x64 : Shape := ⟨2, ![64, 64]⟩
abbrev S3x64 : Shape := ⟨2, ![3, 64]⟩
abbrev S128x64 : Shape := ⟨2, ![128, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1024x64 : Shape := ⟨2, ![1024, 64]⟩
abbrev S100000x1 : Shape := ⟨2, ![100000, 1]⟩
abbrev S1024 : Shape := ⟨1, ![1024]⟩
abbrev S1024x1 : Shape := ⟨2, ![1024, 1]⟩
abbrev S1024x128 : Shape := ⟨2, ![1024, 128]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S100000x100, .f32⟩
  | 1 => ⟨S2x1600000, .i32⟩
  | 2 => ⟨S100000, .i32⟩
  | 3 => ⟨S1024x3, .f32⟩
  | 4 => ⟨S100x64, .f32⟩
  | 5 => ⟨S64, .f32⟩
  | 6 => ⟨S64x64, .f32⟩
  | 7 => ⟨S64, .f32⟩
  | 8 => ⟨S3x64, .f32⟩
  | 9 => ⟨S64, .f32⟩
  | 10 => ⟨S64x64, .f32⟩
  | 11 => ⟨S64, .f32⟩
  | 12 => ⟨S128x64, .f32⟩
  | 13 => ⟨S64, .f32⟩
  | 14 => ⟨S64x1, .f32⟩
  | 15 => ⟨S1, .f32⟩
  | 16 => ⟨S1x1600000, .i32⟩
  | 17 => ⟨S1600000, .i32⟩
  | 18 => ⟨S1x1600000, .i32⟩
  | 19 => ⟨S1600000, .i32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x64, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .f32⟩
  | 86 => ⟨S_, .i32⟩
  | 87 => ⟨S1700000, .i32⟩
  | 88 => ⟨S1700000, .i1⟩
  | 89 => ⟨S_, .i32⟩
  | 90 => ⟨S1700000, .i32⟩
  | 91 => ⟨S1700000, .i32⟩
  | 92 => ⟨S1700000, .i32⟩
  | 93 => ⟨S1700000x1, .i32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S100000x64, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x64, .f32⟩
  | 115 => ⟨S1700000x1, .f32⟩
  | 116 => ⟨S1700000x64, .f32⟩
  | 117 => ⟨S1700000x64, .f32⟩
  | 118 => ⟨S_, .f32⟩
  | 119 => ⟨S100000x64, .f32⟩
  | 120 => ⟨S1700000x1, .i32⟩
  | 121 => ⟨S100000x64, .f32⟩
  | 122 => ⟨S1x64, .f32⟩
  | 123 => ⟨S100000x64, .f32⟩
  | 124 => ⟨S100000x64, .f32⟩
  | 125 => ⟨S_, .f32⟩
  | 126 => ⟨S1024x64, .f32⟩
  | 127 => ⟨S100000x1, .i32⟩
  | _ => ⟨S100000x100, .f32⟩

abbrev hbmTy0_1 (i : Nat) : BufTy := match i % 128 with
  | 0 => ⟨S1024x64, .f32⟩
  | 1 => ⟨S_, .f32⟩
  | 2 => ⟨S100000, .f32⟩
  | 3 => ⟨S_, .f32⟩
  | 4 => ⟨S1024, .f32⟩
  | 5 => ⟨S100000x1, .i32⟩
  | 6 => ⟨S1024, .f32⟩
  | 7 => ⟨S_, .f32⟩
  | 8 => ⟨S1024, .f32⟩
  | 9 => ⟨S1024, .f32⟩
  | 10 => ⟨S1024x1, .f32⟩
  | 11 => ⟨S1024x64, .f32⟩
  | 12 => ⟨S1024x64, .f32⟩
  | 13 => ⟨S1024x64, .f32⟩
  | 14 => ⟨S1x64, .f32⟩
  | 15 => ⟨S1024x64, .f32⟩
  | 16 => ⟨S1024x64, .f32⟩
  | 17 => ⟨S_, .f32⟩
  | 18 => ⟨S1024x64, .f32⟩
  | 19 => ⟨S1024x64, .f32⟩
  | 20 => ⟨S1024x64, .f32⟩
  | 21 => ⟨S1x64, .f32⟩
  | 22 => ⟨S1024x64, .f32⟩
  | 23 => ⟨S1024x64, .f32⟩
  | 24 => ⟨S1024x128, .f32⟩
  | 25 => ⟨S1024x64, .f32⟩
  | 26 => ⟨S1x64, .f32⟩
  | 27 => ⟨S1024x64, .f32⟩
  | 28 => ⟨S1024x64, .f32⟩
  | 29 => ⟨S_, .f32⟩
  | 30 => ⟨S1024x64, .f32⟩
  | 31 => ⟨S1024x64, .f32⟩
  | 32 => ⟨S1024x1, .f32⟩
  | 33 => ⟨S1x1, .f32⟩
  | 34 => ⟨S1024x1, .f32⟩
  | 35 => ⟨S1024x1, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call0_cst : Ref sig .tc := ⟨.hbm, 71, rfl⟩
abbrev main_call0_v0 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_8 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_10 : Ref sig .tc := ⟨.hbm, 83, rfl⟩
abbrev main_v53 : Ref sig .tc := ⟨.hbm, 84, rfl⟩
abbrev main_v54 : Ref sig .tc := ⟨.hbm, 85, rfl⟩
abbrev main_c_11 : Ref sig .tc := ⟨.hbm, 86, rfl⟩
abbrev main_v55 : Ref sig .tc := ⟨.hbm, 87, rfl⟩
abbrev main_v56 : Ref sig .tc := ⟨.hbm, 88, rfl⟩
abbrev main_c_12 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_c_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_17 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_18 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_call1_cst : Ref sig .tc := ⟨.hbm, 145, rfl⟩
abbrev main_call1_v0 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_call2_cst : Ref sig .tc := ⟨.hbm, 157, rfl⟩
abbrev main_call2_v0 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1024x64 : S_.BroadcastsInDim S1024x64 (![] : Fin 0 → Fin S1024x64.rank)
  bcast_S100000_S100000x1_0 : S100000.BroadcastsInDim S100000x1 (![0] : Fin 1 → Fin S100000x1.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  bcast_S1x64_S1024x64_0_1 : S1x64.BroadcastsInDim S1024x64 (![0, 1] : Fin 2 → Fin S1024x64.rank)
  concatenates_S1024x64_S1024x64_S1024x128_d1 : Shape.Concatenates [S1024x64, S1024x64] S1024x128 1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x64_S100000x64_1_0_0_1_n_n_wf : DotDims.WF S100000x100 S100x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S1024x64_S100000x1_S100000x64_1_0_0_1_wf : ScatterDims.WF S1024x64 S100000x1 S100000x64 [1] [0] [0] 1
  scatter_S1024_S100000x1_S100000_n_0_0_1_wf : ScatterDims.WF S1024 S100000x1 S100000 [] [0] [0] 1
  dot_S1024x3_S3x64_S1024x64_1_0_0_1_n_n_wf : DotDims.WF S1024x3 S3x64 S1024x64 [1] [0] [0] [1] [] []
  dot_S1024x64_S64x64_S1024x64_1_0_0_1_n_n_wf : DotDims.WF S1024x64 S64x64 S1024x64 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1024x64_S100000x1_S100000x64_1_0_0_1 : ScatterDims S1024x64 S100000x1 S100000x64 where
  updateWindowDims := [1]
  insertedWindowDims := [0]
  scatterDimsToOperandDims := [0]
  indexVectorDim := 1
  wf := scatter_S1024x64_S100000x1_S100000x64_1_0_0_1_wf
def scatter_S1024_S100000x1_S100000_n_0_0_1 : ScatterDims S1024 S100000x1 S100000 where
  updateWindowDims := []
  insertedWindowDims := [0]
  scatterDimsToOperandDims := [0]
  indexVectorDim := 1
  wf := scatter_S1024_S100000x1_S100000_n_0_0_1_wf
def dot_S1024x3_S3x64_S1024x64_1_0_0_1_n_n : DotDims S1024x3 S3x64 S1024x64 where
  lhsContracting := [1]
  rhsContracting := [0]
  lhsNonContracting := [0]
  rhsNonContracting := [1]
  lhsBatch := []
  rhsBatch := []
  wf := dot_S1024x3_S3x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KernelRun.lean ====
/-
  The idealized kernel's run with its result named.

  The program is three kernel launches among stretches of host operations.  Every weakly fair execution from a memory
  with zero counters terminates without a fault; the argument arrays end as launched, and the result buffer ends
  holding what the last launch's write-backs leave there: the last boundary's contents `W7`, read at the result.
-/
import proofs.«127127_j7456063225891_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v79) = W7 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v79 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c)⟩)

end Cert.KernelIdeal.ResultRun

end
-- ==== Proof.Kept.lean ====
/-
  Buffers that a stretch of the program does not write keep their contents across it.

  The program's buffer contents at each boundary between a stretch of host operations and a kernel launch are a fold
  from the launch memory.  A host operation changes only its result buffer and a launch only its output arrays, so an
  argument array, or an intermediate computed before a stretch, read after the stretch is what it was before it.
-/
import proofs.«127127_j7456063225891_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Across the first stretch: the arguments -/
theorem W1_main_arg0 : W1 m ρ c (Proc.devRef .tc main_arg0) = m ((c : Thread nD τ).loc main_arg0) := by
  show StableHlo.after hostOps0 (W0 m ρ c) (Proc.devRef .tc main_arg0) = _
  after_results_simp <;> rfl
theorem W1_main_arg1 : W1 m ρ c (Proc.devRef .tc main_arg1) = m ((c : Thread nD τ).loc main_arg1) := by
  show StableHlo.after hostOps0 (W0 m ρ c) (Proc.devRef .tc main_arg1) = _
  after_results_simp <;> rfl
theorem W1_main_arg2 : W1 m ρ c (Proc.devRef .tc main_arg2) = m ((c : Thread nD τ).loc main_arg2) := by
  show StableHlo.after hostOps0 (W0 m ρ c) (Proc.devRef .tc main_arg2) = _
  after_results_simp <;> rfl
theorem W1_main_arg3 : W1 m ρ c (Proc.devRef .tc main_arg3) = m ((c : Thread nD τ).loc main_arg3) := by
  show StableHlo.after hostOps0 (W0 m ρ c) (Proc.devRef .tc main_arg3) = _
  after_results_simp <;> rfl
theorem W1_main_arg4 : W1 m ρ c (Proc.devRef .tc main_arg4) = m ((c : Thread nD τ).loc main_arg4) := by
  show StableHlo.after hostOps0 (W0 m ρ c) (Proc.devRef .tc main_arg4) = _
  after_results_simp <;> rfl
theorem W1_main_arg5 : W1 m ρ c (Proc.devRef .tc main_arg5) = m ((c : Thread nD τ).loc main_arg5) := by
  show StableHlo.after hostOps0 (W0 m ρ c) (Proc.devRef .tc main_arg5) = _
  after_results_simp <;> rfl
theorem W1_main_arg6 : W1 m ρ c (Proc.devRef .tc main_arg6) = m ((c : Thread nD τ).loc main_arg6) := by
  show StableHlo.after hostOps0 (W0 m ρ c) (Proc.devRef .tc main_arg6) = _
  after_results_simp <;> rfl
theorem W1_main_arg7 : W1 m ρ c (Proc.devRef .tc main_arg7) = m ((c : Thread nD τ).loc main_arg7) := by
  show StableHlo.after hostOps0 (W0 m ρ c) (Proc.devRef .tc main_arg7) = _
  after_results_simp <;> rfl
theorem W1_main_arg8 : W1 m ρ c (Proc.devRef .tc main_arg8) = m ((c : Thread nD τ).loc main_arg8) := by
  show StableHlo.after hostOps0 (W0 m ρ c) (Proc.devRef .tc main_arg8) = _
  after_results_simp <;> rfl
theorem W1_main_arg9 : W1 m ρ c (Proc.devRef .tc main_arg9) = m ((c : Thread nD τ).loc main_arg9) := by
  show StableHlo.after hostOps0 (W0 m ρ c) (Proc.devRef .tc main_arg9) = _
  after_results_simp <;> rfl
theorem W1_main_arg10 : W1 m ρ c (Proc.devRef .tc main_arg10) = m ((c : Thread nD τ).loc main_arg10) := by
  show StableHlo.after hostOps0 (W0 m ρ c) (Proc.devRef .tc main_arg10) = _
  after_results_simp <;> rfl
theorem W1_main_arg11 : W1 m ρ c (Proc.devRef .tc main_arg11) = m ((c : Thread nD τ).loc main_arg11) := by
  show StableHlo.after hostOps0 (W0 m ρ c) (Proc.devRef .tc main_arg11) = _
  after_results_simp <;> rfl
theorem W1_main_arg12 : W1 m ρ c (Proc.devRef .tc main_arg12) = m ((c : Thread nD τ).loc main_arg12) := by
  show StableHlo.after hostOps0 (W0 m ρ c) (Proc.devRef .tc main_arg12) = _
  after_results_simp <;> rfl
theorem W1_main_arg13 : W1 m ρ c (Proc.devRef .tc main_arg13) = m ((c : Thread nD τ).loc main_arg13) := by
  show StableHlo.after hostOps0 (W0 m ρ c) (Proc.devRef .tc main_arg13) = _
  after_results_simp <;> rfl
theorem W1_main_arg14 : W1 m ρ c (Proc.devRef .tc main_arg14) = m ((c : Thread nD τ).loc main_arg14) := by
  show StableHlo.after hostOps0 (W0 m ρ c) (Proc.devRef .tc main_arg14) = _
  after_results_simp <;> rfl
theorem W1_main_arg15 : W1 m ρ c (Proc.devRef .tc main_arg15) = m ((c : Thread nD τ).loc main_arg15) := by
  show StableHlo.after hostOps0 (W0 m ρ c) (Proc.devRef .tc main_arg15) = _
  after_results_simp <;> rfl

/-! ## Across the first launch -/
theorem W2_main_v5 : W2 m ρ c (Proc.devRef .tc main_v5) = W1 m ρ c (Proc.devRef .tc main_v5) := W2_of_ne m ρ c main_v5 (by decide)
theorem W2_main_v6 : W2 m ρ c (Proc.devRef .tc main_v6) = W1 m ρ c (Proc.devRef .tc main_v6) := W2_of_ne m ρ c main_v6 (by decide)
theorem W2_main_v27 : W2 m ρ c (Proc.devRef .tc main_v27) = W1 m ρ c (Proc.devRef .tc main_v27) := W2_of_ne m ρ c main_v27 (by decide)
theorem W2_main_arg1 : W2 m ρ c (Proc.devRef .tc main_arg1) = W1 m ρ c (Proc.devRef .tc main_arg1) := W2_of_ne m ρ c main_arg1 (by decide)
theorem W2_main_arg2 : W2 m ρ c (Proc.devRef .tc main_arg2) = W1 m ρ c (Proc.devRef .tc main_arg2) := W2_of_ne m ρ c main_arg2 (by decide)
theorem W2_main_arg3 : W2 m ρ c (Proc.devRef .tc main_arg3) = W1 m ρ c (Proc.devRef .tc main_arg3) := W2_of_ne m ρ c main_arg3 (by decide)
theorem W2_main_arg5 : W2 m ρ c (Proc.devRef .tc main_arg5) = W1 m ρ c (Proc.devRef .tc main_arg5) := W2_of_ne m ρ c main_arg5 (by decide)
theorem W2_main_arg6 : W2 m ρ c (Proc.devRef .tc main_arg6) = W1 m ρ c (Proc.devRef .tc main_arg6) := W2_of_ne m ρ c main_arg6 (by decide)
theorem W2_main_arg7 : W2 m ρ c (Proc.devRef .tc main_arg7) = W1 m ρ c (Proc.devRef .tc main_arg7) := W2_of_ne m ρ c main_arg7 (by decide)
theorem W2_main_arg8 : W2 m ρ c (Proc.devRef .tc main_arg8) = W1 m ρ c (Proc.devRef .tc main_arg8) := W2_of_ne m ρ c main_arg8 (by decide)
theorem W2_main_arg9 : W2 m ρ c (Proc.devRef .tc main_arg9) = W1 m ρ c (Proc.devRef .tc main_arg9) := W2_of_ne m ρ c main_arg9 (by decide)
theorem W2_main_arg10 : W2 m ρ c (Proc.devRef .tc main_arg10) = W1 m ρ c (Proc.devRef .tc main_arg10) := W2_of_ne m ρ c main_arg10 (by decide)
theorem W2_main_arg11 : W2 m ρ c (Proc.devRef .tc main_arg11) = W1 m ρ c (Proc.devRef .tc main_arg11) := W2_of_ne m ρ c main_arg11 (by decide)
theorem W2_main_arg12 : W2 m ρ c (Proc.devRef .tc main_arg12) = W1 m ρ c (Proc.devRef .tc main_arg12) := W2_of_ne m ρ c main_arg12 (by decide)
theorem W2_main_arg13 : W2 m ρ c (Proc.devRef .tc main_arg13) = W1 m ρ c (Proc.devRef .tc main_arg13) := W2_of_ne m ρ c main_arg13 (by decide)
theorem W2_main_arg14 : W2 m ρ c (Proc.devRef .tc main_arg14) = W1 m ρ c (Proc.devRef .tc main_arg14) := W2_of_ne m ρ c main_arg14 (by decide)
theorem W2_main_arg15 : W2 m ρ c (Proc.devRef .tc main_arg15) = W1 m ρ c (Proc.devRef .tc main_arg15) := W2_of_ne m ρ c main_arg15 (by decide)

/-! ## Across the second stretch -/
theorem W4_main_v5 : W4 m ρ c (Proc.devRef .tc main_v5) = W2 m ρ c (Proc.devRef .tc main_v5) := by
  show StableHlo.after hostOps1_1 (StableHlo.after hostOps1 (W2 m ρ c)) (Proc.devRef .tc main_v5) = _
  after_results_simp
theorem W4_main_v6 : W4 m ρ c (Proc.devRef .tc main_v6) = W2 m ρ c (Proc.devRef .tc main_v6) := by
  show StableHlo.after hostOps1_1 (StableHlo.after hostOps1 (W2 m ρ c)) (Proc.devRef .tc main_v6) = _
  after_results_simp
theorem W4_main_v27 : W4 m ρ c (Proc.devRef .tc main_v27) = W2 m ρ c (Proc.devRef .tc main_v27) := by
  show StableHlo.after hostOps1_1 (StableHlo.after hostOps1 (W2 m ρ c)) (Proc.devRef .tc main_v27) = _
  after_results_simp
theorem W4_main_arg2 : W4 m ρ c (Proc.devRef .tc main_arg2) = W2 m ρ c (Proc.devRef .tc main_arg2) := by
  show StableHlo.after hostOps1_1 (StableHlo.after hostOps1 (W2 m ρ c)) (Proc.devRef .tc main_arg2) = _
  after_results_simp
theorem W4_main_arg3 : W4 m ρ c (Proc.devRef .tc main_arg3) = W2 m ρ c (Proc.devRef .tc main_arg3) := by
  show StableHlo.after hostOps1_1 (StableHlo.after hostOps1 (W2 m ρ c)) (Proc.devRef .tc main_arg3) = _
  after_results_simp
theorem W4_main_arg6 : W4 m ρ c (Proc.devRef .tc main_arg6) = W2 m ρ c (Proc.devRef .tc main_arg6) := by
  show StableHlo.after hostOps1_1 (StableHlo.after hostOps1 (W2 m ρ c)) (Proc.devRef .tc main_arg6) = _
  after_results_simp
theorem W4_main_arg7 : W4 m ρ c (Proc.devRef .tc main_arg7) = W2 m ρ c (Proc.devRef .tc main_arg7) := by
  show StableHlo.after hostOps1_1 (StableHlo.after hostOps1 (W2 m ρ c)) (Proc.devRef .tc main_arg7) = _
  after_results_simp
theorem W4_main_arg8 : W4 m ρ c (Proc.devRef .tc main_arg8) = W2 m ρ c (Proc.devRef .tc main_arg8) := by
  show StableHlo.after hostOps1_1 (StableHlo.after hostOps1 (W2 m ρ c)) (Proc.devRef .tc main_arg8) = _
  after_results_simp
theorem W4_main_arg9 : W4 m ρ c (Proc.devRef .tc main_arg9) = W2 m ρ c (Proc.devRef .tc main_arg9) := by
  show StableHlo.after hostOps1_1 (StableHlo.after hostOps1 (W2 m ρ c)) (Proc.devRef .tc main_arg9) = _
  after_results_simp
theorem W4_main_arg10 : W4 m ρ c (Proc.devRef .tc main_arg10) = W2 m ρ c (Proc.devRef .tc main_arg10) := by
  show StableHlo.after hostOps1_1 (StableHlo.after hostOps1 (W2 m ρ c)) (Proc.devRef .tc main_arg10) = _
  after_results_simp
theorem W4_main_arg11 : W4 m ρ c (Proc.devRef .tc main_arg11) = W2 m ρ c (Proc.devRef .tc main_arg11) := by
  show StableHlo.after hostOps1_1 (StableHlo.after hostOps1 (W2 m ρ c)) (Proc.devRef .tc main_arg11) = _
  after_results_simp
theorem W4_main_arg12 : W4 m ρ c (Proc.devRef .tc main_arg12) = W2 m ρ c (Proc.devRef .tc main_arg12) := by
  show StableHlo.after hostOps1_1 (StableHlo.after hostOps1 (W2 m ρ c)) (Proc.devRef .tc main_arg12) = _
  after_results_simp
theorem W4_main_arg13 : W4 m ρ c (Proc.devRef .tc main_arg13) = W2 m ρ c (Proc.devRef .tc main_arg13) := by
  show StableHlo.after hostOps1_1 (StableHlo.after hostOps1 (W2 m ρ c)) (Proc.devRef .tc main_arg13) = _
  after_results_simp
theorem W4_main_arg14 : W4 m ρ c (Proc.devRef .tc main_arg14) = W2 m ρ c (Proc.devRef .tc main_arg14) := by
  show StableHlo.after hostOps1_1 (StableHlo.after hostOps1 (W2 m ρ c)) (Proc.devRef .tc main_arg14) = _
  after_results_simp
theorem W4_main_arg15 : W4 m ρ c (Proc.devRef .tc main_arg15) = W2 m ρ c (Proc.devRef .tc main_arg15) := by
  show StableHlo.after hostOps1_1 (StableHlo.after hostOps1 (W2 m ρ c)) (Proc.devRef .tc main_arg15) = _
  after_results_simp

/-! ## Across the second launch -/
theorem W5_main_v5 : W5 m ρ c (Proc.devRef .tc main_v5) = W4 m ρ c (Proc.devRef .tc main_v5) := W5_of_ne m ρ c main_v5 (by decide)
theorem W5_main_v6 : W5 m ρ c (Proc.devRef .tc main_v6) = W4 m ρ c (Proc.devRef .tc main_v6) := W5_of_ne m ρ c main_v6 (by decide)
theorem W5_main_v27 : W5 m ρ c (Proc.devRef .tc main_v27) = W4 m ρ c (Proc.devRef .tc main_v27) := W5_of_ne m ρ c main_v27 (by decide)
theorem W5_main_arg2 : W5 m ρ c (Proc.devRef .tc main_arg2) = W4 m ρ c (Proc.devRef .tc main_arg2) := W5_of_ne m ρ c main_arg2 (by decide)
theorem W5_main_arg3 : W5 m ρ c (Proc.devRef .tc main_arg3) = W4 m ρ c (Proc.devRef .tc main_arg3) := W5_of_ne m ρ c main_arg3 (by decide)
theorem W5_main_arg7 : W5 m ρ c (Proc.devRef .tc main_arg7) = W4 m ρ c (Proc.devRef .tc main_arg7) := W5_of_ne m ρ c main_arg7 (by decide)
theorem W5_main_arg8 : W5 m ρ c (Proc.devRef .tc main_arg8) = W4 m ρ c (Proc.devRef .tc main_arg8) := W5_of_ne m ρ c main_arg8 (by decide)
theorem W5_main_arg9 : W5 m ρ c (Proc.devRef .tc main_arg9) = W4 m ρ c (Proc.devRef .tc main_arg9) := W5_of_ne m ρ c main_arg9 (by decide)
theorem W5_main_arg10 : W5 m ρ c (Proc.devRef .tc main_arg10) = W4 m ρ c (Proc.devRef .tc main_arg10) := W5_of_ne m ρ c main_arg10 (by decide)
theorem W5_main_arg11 : W5 m ρ c (Proc.devRef .tc main_arg11) = W4 m ρ c (Proc.devRef .tc main_arg11) := W5_of_ne m ρ c main_arg11 (by decide)
theorem W5_main_arg12 : W5 m ρ c (Proc.devRef .tc main_arg12) = W4 m ρ c (Proc.devRef .tc main_arg12) := W5_of_ne m ρ c main_arg12 (by decide)
theorem W5_main_arg13 : W5 m ρ c (Proc.devRef .tc main_arg13) = W4 m ρ c (Proc.devRef .tc main_arg13) := W5_of_ne m ρ c main_arg13 (by decide)
theorem W5_main_arg14 : W5 m ρ c (Proc.devRef .tc main_arg14) = W4 m ρ c (Proc.devRef .tc main_arg14) := W5_of_ne m ρ c main_arg14 (by decide)
theorem W5_main_arg15 : W5 m ρ c (Proc.devRef .tc main_arg15) = W4 m ρ c (Proc.devRef .tc main_arg15) := W5_of_ne m ρ c main_arg15 (by decide)

/-! ## Across the third stretch -/
theorem W6_main_arg3 : W6 m ρ c (Proc.devRef .tc main_arg3) = W5 m ρ c (Proc.devRef .tc main_arg3) := by
  show StableHlo.after hostOps2 (W5 m ρ c) (Proc.devRef .tc main_arg3) = _
  after_results_simp
theorem W6_main_arg8 : W6 m ρ c (Proc.devRef .tc main_arg8) = W5 m ρ c (Proc.devRef .tc main_arg8) := by
  show StableHlo.after hostOps2 (W5 m ρ c) (Proc.devRef .tc main_arg8) = _
  after_results_simp
theorem W6_main_arg10 : W6 m ρ c (Proc.devRef .tc main_arg10) = W5 m ρ c (Proc.devRef .tc main_arg10) := by
  show StableHlo.after hostOps2 (W5 m ρ c) (Proc.devRef .tc main_arg10) = _
  after_results_simp
theorem W6_main_arg12 : W6 m ρ c (Proc.devRef .tc main_arg12) = W5 m ρ c (Proc.devRef .tc main_arg12) := by
  show StableHlo.after hostOps2 (W5 m ρ c) (Proc.devRef .tc main_arg12) = _
  after_results_simp
theorem W6_main_arg14 : W6 m ρ c (Proc.devRef .tc main_arg14) = W5 m ρ c (Proc.devRef .tc main_arg14) := by
  show StableHlo.after hostOps2 (W5 m ρ c) (Proc.devRef .tc main_arg14) = _
  after_results_simp

end Cert.KernelIdeal.Kept

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«127127_j7456063225891_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.Linear0.lean ====
/-
  One linear projection, block of rows by block of rows, is the whole matrix product.

  The launch walks twenty blocks of 5000 rows of a [100000, 100] array; at each it multiplies the block by the
  resident [100, 64] weight matrix into a zero accumulator and writes the [5000, 64] result back to the same rows of the
  output.  Over the extended reals a change of float format is the identity and a matrix unit's accumulation into zero
  is the plain sum, so entry (i, q) of the output array is Σ n, x (i, n) * w (n, q) whichever block row i lies in:
  the output array is the host's whole product of the two arrays.
-/
import proofs.«127127_j7456063225891_1_alg».proof.Proof.Gen.KernelIdeal.Frame
import proofs.«127127_j7456063225891_1_alg».proof.Proof.Gen.ReferenceIdeal
import proofs.«127127_j7456063225891_1_alg».proof.Proof.LibDenseBlock
import proofs.«127127_j7456063225891_1_alg».proof.Proof.LibDenseHost
import Idealize.ShloMosaic.Lib.Pipeline.Value

set_option maxRecDepth 16384

noncomputable section

namespace Cert.KernelIdeal.Linear0

open Cert.KernelIdeal Cert.KernelIdeal.Gen
open Idealize.ShloMosaic Idealize.ShloMosaic.TcCoe Idealize.ShloMosaic.ValueIdx Idealize.ShloMosaic.DenseBlock Idealize.SL.Sem
open Idealize.ShloMosaic.Pipeline (Dat Cfg Window)

/-- The whole product of the two arrays, as the host computes it. -/
def prod (a : FVec Ideal S100000x100 .f32) (w : FVec Ideal S100x64 .f32) : FVec Ideal S100000x64 .f32 :=
  Host.dotGeneral (F := Ideal) Cert.ReferenceIdeal.dot_S100000x100_S100x64_S100000x64_1_0_0_1_n_n none a w

/-- Entry (i, q) of the whole product. -/
theorem prod_apply (a : FVec Ideal S100000x100 .f32) (w : FVec Ideal S100x64 .f32) (i : Fin 100000) (q : Fin 64) :
    prod a w (ix2 i q) = ∑ n : Fin 100, a (ix2 i n) * w (ix2 n q) :=
  dotGeneral_apply_ix2 (K := 100000) (N := 100) (Q := 64) Cert.ReferenceIdeal.Facts₀.dot_S100000x100_S100x64_S100000x64_1_0_0_1_n_n_wf _ a w i q

/-- Entry (p, q) of what the body stores for a block: the same sum over the block's row p. -/
theorem stored_apply (x0 : Vec Ideal S5000x100 .f32) (x1 : Vec Ideal S100x64 .f32) (p : Fin 5000) (q : Fin 64) :
    k0_pay1 x0 x1 (ix2 p q) = ∑ n : Fin 100, x0 (ix2 p n) * x1 (ix2 n q) := by
  unfold k0_pay1
  exact matmul_zero_apply (K := 5000) (N := 100) (Q := 64) Facts₀.dot_S5000x100_S100x64_S5000x64_1_0_0_1_n_n_wf (φ₁ := .bf16) (φ₂ := .bf16) x0 x1 p q

theorem hz : (![0, 0] : Fin 2 → Nat) = fun _ => 0 := funext fun a => by fin_cases a <;> rfl

/-- The index maps over the grid: the input's block row is the output's, every block column is 0, the weights' block
    is the whole matrix. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

section
variable (V : (c : Dev nD) → (b : Ref sig .tc) → Buf (Elt Ideal) ((c : Thread nD τ).loc b))

/-- What point t writes back is block t of the whole product of the arrays as the launch finds them. -/
theorem flushed_eq (c : Dev nD) (t : Fin cfg0.N) :
    (dat0 V c).flushed 2 t = ((cfg0.win 2).blk t).view.read (Elt Ideal) (prod (V c main_arg0) (V c main_arg4)) := by
  show (cfg0.win 2).cut (grid0.coords t) ((dat0 V c).after 2 t) = _
  rw [after0_2]
  unfold out0_2
  rw [View.canon_unit_zero hz]
  simp only [View.ld_unit_zero (S := S5000x100) hz, View.ld_unit_zero (S := S100x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have hp := p.isLt
  have hemb : ((cfg0.win 2).blk t).view.emb (ix2 p q) = ix2 (⟨win0_2.index t (0 : Fin 2) * 5000 + p.val, by omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 64 + 1 * q.val = q.val; omega
  show k0_pay1 (iblk0 V c 0 t) (iblk0 V c 1 t) (ix2 p q) = prod (V c main_arg0) (V c main_arg4) (((cfg0.win 2).blk t).view.emb (ix2 p q))
  rw [hemb, prod_apply]
  refine (stored_apply (iblk0 V c 0 t) (iblk0 V c 1 t) p q).trans ?_
  refine Finset.sum_congr rfl fun n _ => ?_
  have hx : iblk0 V c 0 t (ix2 p n) = V c main_arg0 (ix2 (⟨win0_2.index t (0 : Fin 2) * 5000 + p.val, by omega⟩ : Fin 100000) n) := by
    show V c main_arg0 (((cfg0.win 0).blk t).view.emb (ix2 p n)) = _
    refine congrArg (V c main_arg0) ?_
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 100 + 1 * n.val = n.val; omega
  have hw : iblk0 V c 1 t (ix2 n q) = V c main_arg4 (ix2 n q) := by
    show V c main_arg4 (((cfg0.win 1).blk t).view.emb (ix2 n q)) = _
    refine congrArg (V c main_arg4) ?_
    funext a; apply Fin.ext
    match a with
    | ⟨0, _⟩ => show win0_1.index t (0 : Fin 2) * 100 + 1 * n.val = n.val; omega
    | ⟨1, _⟩ => show win0_1.index t (1 : Fin 2) * 64 + 1 * q.val = q.val; omega
  rw [hx, hw]

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v28).slice (win0_2.rect t)).set ↔ _
  rw [View.set_slice_whole, Rect.mem_set_unit]
  exact Iff.rfl

/-- The twenty blocks tile the output: row i lies in block i / 5000. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the launch is the whole product of the two arrays as the launch finds them. -/
theorem arr (c : Dev nD) : (dat0 V c).arrAt 2 cfg0.N = prod (V c main_arg0) (V c main_arg4) :=
  (dat0 V c).arrAt_eq_of_cover 2 _ (fun t _ => flushed_eq V c t) cover

end

end Cert.KernelIdeal.Linear0

end
-- ==== Proof.Linear1.lean ====
/-
  One linear projection, block of rows by block of rows, is the whole matrix product.

  The launch walks twenty blocks of 5000 rows of a [100000, 64] array; at each it multiplies the block by the
  resident [64, 64] weight matrix into a zero accumulator and writes the [5000, 64] result back to the same rows of the
  output.  Over the extended reals a change of float format is the identity and a matrix unit's accumulation into zero
  is the plain sum, so entry (i, q) of the output array is Σ n, x (i, n) * w (n, q) whichever block row i lies in:
  the output array is the host's whole product of the two arrays.
-/
import proofs.«127127_j7456063225891_1_alg».proof.Proof.Gen.KernelIdeal.Frame
import proofs.«127127_j7456063225891_1_alg».proof.Proof.Gen.ReferenceIdeal
import proofs.«127127_j7456063225891_1_alg».proof.Proof.LibDenseBlock
import proofs.«127127_j7456063225891_1_alg».proof.Proof.LibDenseHost
import Idealize.ShloMosaic.Lib.Pipeline.Value

set_option maxRecDepth 16384

noncomputable section

namespace Cert.KernelIdeal.Linear1

open Cert.KernelIdeal Cert.KernelIdeal.Gen
open Idealize.ShloMosaic Idealize.ShloMosaic.TcCoe Idealize.ShloMosaic.ValueIdx Idealize.ShloMosaic.DenseBlock Idealize.SL.Sem
open Idealize.ShloMosaic.Pipeline (Dat Cfg Window)

/-- The whole product of the two arrays, as the host computes it. -/
def prod (a : FVec Ideal S100000x64 .f32) (w : FVec Ideal S64x64 .f32) : FVec Ideal S100000x64 .f32 :=
  Host.dotGeneral (F := Ideal) Cert.ReferenceIdeal.dot_S100000x64_S64x64_S100000x64_1_0_0_1_n_n none a w

/-- Entry (i, q) of the whole product. -/
theorem prod_apply (a : FVec Ideal S100000x64 .f32) (w : FVec Ideal S64x64 .f32) (i : Fin 100000) (q : Fin 64) :
    prod a w (ix2 i q) = ∑ n : Fin 64, a (ix2 i n) * w (ix2 n q) :=
  dotGeneral_apply_ix2 (K := 100000) (N := 64) (Q := 64) Cert.ReferenceIdeal.Facts₀.dot_S100000x64_S64x64_S100000x64_1_0_0_1_n_n_wf _ a w i q

/-- Entry (p, q) of what the body stores for a block: the same sum over the block's row p. -/
theorem stored_apply (x0 : Vec Ideal S5000x64 .f32) (x1 : Vec Ideal S64x64 .f32) (p : Fin 5000) (q : Fin 64) :
    k1_pay1 x0 x1 (ix2 p q) = ∑ n : Fin 64, x0 (ix2 p n) * x1 (ix2 n q) := by
  unfold k1_pay1
  rw [shapeCast_self]
  exact matmul_zero_apply (K := 5000) (N := 64) (Q := 64) Facts₀.dot_S5000x64_S64x64_S5000x64_1_0_0_1_n_n_wf (φ₁ := .bf16) (φ₂ := .bf16) x0 x1 p q

theorem hz : (![0, 0] : Fin 2 → Nat) = fun _ => 0 := funext fun a => by fin_cases a <;> rfl

/-- The index maps over the grid: the input's block row is the output's, every block column is 0, the weights' block
    is the whole matrix. -/
theorem idx_facts : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every block row is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

section
variable (V : (c : Dev nD) → (b : Ref sig .tc) → Buf (Elt Ideal) ((c : Thread nD τ).loc b))

/-- What point t writes back is block t of the whole product of the arrays as the launch finds them. -/
theorem flushed_eq (c : Dev nD) (t : Fin cfg1.N) :
    (dat1 V c).flushed 2 t = ((cfg1.win 2).blk t).view.read (Elt Ideal) (prod (V c main_v45) (V c main_arg6)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  have hp := p.isLt
  have hemb : ((cfg1.win 2).blk t).view.emb (ix2 p q) = ix2 (⟨win1_2.index t (0 : Fin 2) * 5000 + p.val, by omega⟩ : Fin 100000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 64 + 1 * q.val = q.val; omega
  show k1_pay1 (iblk1 V c 0 t) (iblk1 V c 1 t) (ix2 p q) = prod (V c main_v45) (V c main_arg6) (((cfg1.win 2).blk t).view.emb (ix2 p q))
  rw [hemb, prod_apply]
  refine (stored_apply (iblk1 V c 0 t) (iblk1 V c 1 t) p q).trans ?_
  refine Finset.sum_congr rfl fun n _ => ?_
  have hx : iblk1 V c 0 t (ix2 p n) = V c main_v45 (ix2 (⟨win1_2.index t (0 : Fin 2) * 5000 + p.val, by omega⟩ : Fin 100000) n) := by
    show V c main_v45 (((cfg1.win 0).blk t).view.emb (ix2 p n)) = _
    refine congrArg (V c main_v45) ?_
    funext a; apply Fin.ext
    match a with
    | ⟨0, _⟩ => show win1_0.index t (0 : Fin 2) * 5000 + 1 * p.val = win1_2.index t (0 : Fin 2) * 5000 + p.val; omega
    | ⟨1, _⟩ => show win1_0.index t (1 : Fin 2) * 64 + 1 * n.val = n.val; omega
  have hw : iblk1 V c 1 t (ix2 n q) = V c main_arg6 (ix2 n q) := by
    show V c main_arg6 (((cfg1.win 1).blk t).view.emb (ix2 n q)) = _
    refine congrArg (V c main_arg6) ?_
    funext a; apply Fin.ext
    match a with
    | ⟨0, _⟩ => show win1_1.index t (0 : Fin 2) * 64 + 1 * n.val = n.val; omega
    | ⟨1, _⟩ => show win1_1.index t (1 : Fin 2) * 64 + 1 * q.val = q.val; omega
  rw [hx, hw]

/-- An index of the output array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v46).slice (win1_2.rect t)).set ↔ _
  rw [View.set_slice_whole, Rect.mem_set_unit]
  exact Iff.rfl

/-- The twenty blocks tile the output: row i lies in block i / 5000. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the launch is the whole product of the two arrays as the launch finds them. -/
theorem arr (c : Dev nD) : (dat1 V c).arrAt 2 cfg1.N = prod (V c main_v45) (V c main_arg6) :=
  (dat1 V c).arrAt_eq_of_cover 2 _ (fun t _ => flushed_eq V c t) cover

end

end Cert.KernelIdeal.Linear1

end
-- ==== Proof.Conv.lean ====
/-
  One graph convolution's aggregation, and the mean pooling, as functions of their operands.

  Given projected node features h [100000, 64], the edge sources and targets with self-loops appended, the edge
  normalisation norm = deg^(-1/2)[src] * deg^(-1/2)[dst] and a bias b, a convolution gathers the rows of h at the edge
  sources (a negative index counted from the end), scales row e by norm e, scatter-adds the rows at the edge
  targets, and adds the bias to every row.  The pooling sums the node rows by graph and divides each graph's sum by its
  node count, at least one.  The reference applies exactly these operations, recomputing the edge lists and the
  normalisation for its second convolution from the same argument.
-/
import proofs.«127127_j7456063225891_1_alg».proof.Proof.Gen.ReferenceIdeal.Read

set_option maxRecDepth 16384

noncomputable section

namespace Cert.ReferenceIdeal.Conv

open Cert.ReferenceIdeal Cert.ReferenceIdeal.Gen Cert.ReferenceIdeal.Read Idealize.ShloMosaic Idealize.ShloMosaic.TcCoe Idealize.SL.Sem

variable {F : FTy → Type} [FloatOps F]

/-- An edge endpoint as a row index: a negative one counted from the end. -/
def rowIndex (i : (⟨S1700000, .i32⟩ : BufTy).Contents (Elt F)) : (⟨S1700000, .i32⟩ : BufTy).Contents (Elt F) :=
  select (cmpi .slt i (broadcastInDim S1700000 ![] bcast_S_S1700000 (constantI S_ 32 0#32)))
    (addi i (broadcastInDim S1700000 ![] bcast_S_S1700000 (constantI S_ 32 100000#32))) i

/-- Gather at the sources, scale by the edge normalisation, scatter-add at the targets, add the bias. -/
def aggregate (h : (⟨S100000x64, .f32⟩ : BufTy).Contents (Elt F)) (src dst : (⟨S1700000, .i32⟩ : BufTy).Contents (Elt F)) (norm : (⟨S1700000, .f32⟩ : BufTy).Contents (Elt F))
    (b : (⟨S64, .f32⟩ : BufTy).Contents (Elt F)) : (⟨S100000x64, .f32⟩ : BufTy).Contents (Elt F) :=
  addf (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 dst)
      (mulf (Host.gather gather_S100000x64_S1700000x1_S1700000x64_1_0_n_n_0_1_164 h
          (broadcastInDim S1700000x1 ![0] bcast_S1700000_S1700000x1_0 (rowIndex src)))
        (broadcastInDim S1700000x64 ![0, 1] bcast_S1700000x1_S1700000x64_0_1
          (broadcastInDim S1700000x1 ![0] bcast_S1700000_S1700000x1_0 norm))))
    (broadcastInDim S100000x64 ![0, 1] bcast_S1x64_S100000x64_0_1 (broadcastInDim S1x64 ![1] bcast_S64_S1x64_1 b))

/-- relu on the node features. -/
def relu (v : (⟨S100000x64, .f32⟩ : BufTy).Contents (Elt F)) : (⟨S100000x64, .f32⟩ : BufTy).Contents (Elt F) :=
  maximumf v (broadcastInDim S100000x64 ![] bcast_S_S100000x64 (constant S_ .f32 0x00000000#32))

/-- Mean of the node rows by graph. -/
def pool (h : (⟨S100000x64, .f32⟩ : BufTy).Contents (Elt F)) (batch : (⟨S100000, .i32⟩ : BufTy).Contents (Elt F)) : (⟨S1024x64, .f32⟩ : BufTy).Contents (Elt F) :=
  Host.divf (Host.scatterAdd scatter_S1024x64_S100000x1_S100000x64_1_0_0_1
      (broadcastInDim S1024x64 ![] bcast_S_S1024x64 (constant S_ .f32 0x00000000#32))
      (broadcastInDim S100000x1 ![0] bcast_S100000_S100000x1_0 batch) h)
    (broadcastInDim S1024x64 ![0, 1] bcast_S1024x1_S1024x64_0_1 (broadcastInDim S1024x1 ![0] bcast_S1024_S1024x1_0
      (maximumf (Host.scatterAdd scatter_S1024_S100000x1_S100000_n_0_0_1
          (broadcastInDim S1024 ![] bcast_S_S1024 (constant S_ .f32 0x00000000#32))
          (broadcastInDim S100000x1 ![0] bcast_S100000_S100000x1_0 batch)
          (broadcastInDim S100000 ![] bcast_S_S100000 (constant S_ .f32 0x3F800000#32)))
        (broadcastInDim S1024 ![] bcast_S_S1024 (constant S_ .f32 0x3F800000#32)))))

/-- The reference's first convolution, after relu. -/
theorem val_conv1 (x0 : (⟨S100000x100, .f32⟩ : BufTy).Contents (Elt F)) (x1 : (⟨S2x1600000, .i32⟩ : BufTy).Contents (Elt F)) (x4 : (⟨S100x64, .f32⟩ : BufTy).Contents (Elt F)) (x5 : (⟨S64, .f32⟩ : BufTy).Contents (Elt F)) :
    val_main_v45 (F := F) x0 x1 x4 x5
      = relu (aggregate (val_main_v28 (F := F) x0 x4) (val_main_v5 (F := F) x1) (val_main_v6 (F := F) x1) (val_main_v27 (F := F) x1) x5) := rfl

/-- The reference's second convolution, on edge lists and a normalisation it recomputes from the same argument. -/
theorem val_conv2 (x0 : (⟨S100000x100, .f32⟩ : BufTy).Contents (Elt F)) (x1 : (⟨S2x1600000, .i32⟩ : BufTy).Contents (Elt F)) (x4 : (⟨S100x64, .f32⟩ : BufTy).Contents (Elt F)) (x5 : (⟨S64, .f32⟩ : BufTy).Contents (Elt F))
    (x6 : (⟨S64x64, .f32⟩ : BufTy).Contents (Elt F)) (x7 : (⟨S64, .f32⟩ : BufTy).Contents (Elt F)) :
    val_main_v86 (F := F) x0 x1 x4 x5 x6 x7
      = aggregate (val_main_v70 (F := F) x0 x1 x4 x5 x6) (val_main_v5 (F := F) x1) (val_main_v6 (F := F) x1) (val_main_v27 (F := F) x1) x7 := rfl

/-- The reference's pooled features. -/
theorem val_pool (x0 : (⟨S100000x100, .f32⟩ : BufTy).Contents (Elt F)) (x1 : (⟨S2x1600000, .i32⟩ : BufTy).Contents (Elt F)) (x2 : (⟨S100000, .i32⟩ : BufTy).Contents (Elt F)) (x4 : (⟨S100x64, .f32⟩ : BufTy).Contents (Elt F))
    (x5 : (⟨S64, .f32⟩ : BufTy).Contents (Elt F)) (x6 : (⟨S64x64, .f32⟩ : BufTy).Contents (Elt F)) (x7 : (⟨S64, .f32⟩ : BufTy).Contents (Elt F)) :
    val_main_v98 (F := F) x0 x1 x2 x4 x5 x6 x7 = pool (val_main_v86 (F := F) x0 x1 x4 x5 x6 x7) x2 := rfl

end Cert.ReferenceIdeal.Conv

end
-- ==== Proof.Stretch.lean ====
/-
  The kernel's host stretches between its launches, on any entry contents.

  Between the first two launches the program applies one convolution's aggregation and relu to the first launch's
  output; between the last two, the second aggregation to the second launch's output, and then the mean pooling.  The
  operations are the reference's own, so each stretch's result is the reference's function of the buffers the stretch
  reads, whatever those hold.
-/
import proofs.«127127_j7456063225891_1_alg».proof.Proof.Gen.KernelIdeal.Launch
import proofs.«127127_j7456063225891_1_alg».proof.Proof.Conv
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-! ## The two programs' records of one gather and one scatter are the same record -/

theorem gather_rows (a : FVec Ideal S100000x64 .f32) (b : IVec S1700000x1 32) :
    Host.gather gather_S100000x64_S1700000x1_S1700000x64_1_0_n_n_0_1_164 a b
      = Host.gather Cert.ReferenceIdeal.gather_S100000x64_S1700000x1_S1700000x64_1_0_n_n_0_1_164 a b := rfl

theorem scatter_rows (x : FVec Ideal S100000x64 .f32) (i : IVec S1700000x1 32) (u : FVec Ideal S1700000x64 .f32) :
    Host.scatterAdd scatter_S100000x64_S1700000x1_S1700000x64_1_0_0_1 x i u
      = Host.scatterAdd Cert.ReferenceIdeal.scatter_S100000x64_S1700000x1_S1700000x64_1_0_0_1 x i u := rfl

theorem scatter_graphs (x : FVec Ideal S1024x64 .f32) (i : IVec S100000x1 32) (u : FVec Ideal S100000x64 .f32) :
    Host.scatterAdd scatter_S1024x64_S100000x1_S100000x64_1_0_0_1 x i u
      = Host.scatterAdd Cert.ReferenceIdeal.scatter_S1024x64_S100000x1_S100000x64_1_0_0_1 x i u := rfl

variable (Wx : Valuation τ sig (Elt Ideal))

/-- After the first launch: aggregate its output, add the bias, relu. -/
theorem conv1 :
    StableHlo.after hostOps1_1 (StableHlo.after hostOps1 Wx) (Proc.devRef .tc main_v45)
      = Cert.ReferenceIdeal.Conv.relu (F := Ideal) (Cert.ReferenceIdeal.Conv.aggregate (F := Ideal) (Wx (Proc.devRef .tc main_v28)) (Wx (Proc.devRef .tc main_v5)) (Wx (Proc.devRef .tc main_v6)) (Wx (Proc.devRef .tc main_v27)) (Wx (Proc.devRef .tc main_arg5))) := by
  after_results_simp
  unfold Cert.ReferenceIdeal.Conv.relu Cert.ReferenceIdeal.Conv.aggregate Cert.ReferenceIdeal.Conv.rowIndex
  refine congrArg₂ maximumf ?_ rfl
  refine congrArg₂ addf ?_ rfl
  refine (scatter_rows _ _ _).trans ?_
  refine congrArg (Host.scatterAdd Cert.ReferenceIdeal.scatter_S100000x64_S1700000x1_S1700000x64_1_0_0_1 _ _) ?_
  refine congrArg₂ mulf ?_ rfl
  exact gather_rows _ _

/-- After the second launch: aggregate its output, add the bias, pool by graph. -/
theorem pooled :
    StableHlo.after hostOps2 Wx (Proc.devRef .tc main_v74)
      = Cert.ReferenceIdeal.Conv.pool (F := Ideal) (Cert.ReferenceIdeal.Conv.aggregate (F := Ideal) (Wx (Proc.devRef .tc main_v46)) (Wx (Proc.devRef .tc main_v5)) (Wx (Proc.devRef .tc main_v6)) (Wx (Proc.devRef .tc main_v27)) (Wx (Proc.devRef .tc main_arg7))) (Wx (Proc.devRef .tc main_arg2)) := by
  after_results_simp
  unfold Cert.ReferenceIdeal.Conv.pool Cert.ReferenceIdeal.Conv.aggregate Cert.ReferenceIdeal.Conv.rowIndex
  refine congrArg₂ Host.divf ?_ ?_
  · refine (scatter_graphs _ _ _).trans ?_
    refine congrArg (Host.scatterAdd Cert.ReferenceIdeal.scatter_S1024x64_S100000x1_S100000x64_1_0_0_1 _ _) ?_
    refine congrArg₂ addf ?_ rfl
    refine (scatter_rows _ _ _).trans ?_
    refine congrArg (Host.scatterAdd Cert.ReferenceIdeal.scatter_S100000x64_S1700000x1_S1700000x64_1_0_0_1 _ _) ?_
    refine congrArg₂ mulf ?_ rfl
    exact gather_rows _ _
  · rfl

end Cert.KernelIdeal.Stretch

end
-- ==== Proof.Glue.lean ====
/-
  The host stretches of the kernel's program compute what the reference computes.

  Around its three launches the kernel's program prepares the graph (self-loops, the symmetric degree normalisation),
  gathers, scales and scatter-adds the projected features, adds the bias, applies relu, and pools by graph — the same
  host operations, in the same order, as the reference, which only recomputes the graph preparation for its second
  convolution.  So once each launch's output array is known to be the reference's matrix product of the same operands,
  each intermediate of the kernel's program is the reference's intermediate of the same arguments: the terms agree
  operation by operation, and nothing about a gather or a scatter-add has to be opened.
-/
import proofs.«127127_j7456063225891_1_alg».proof.Proof.Kept
import proofs.«127127_j7456063225891_1_alg».proof.Proof.Linear0
import proofs.«127127_j7456063225891_1_alg».proof.Proof.Linear1
import proofs.«127127_j7456063225891_1_alg».proof.Proof.Gen.ReferenceIdeal.Read
import proofs.«127127_j7456063225891_1_alg».proof.Proof.Conv
import proofs.«127127_j7456063225891_1_alg».proof.Proof.Stretch

set_option maxRecDepth 16384

noncomputable section

namespace Cert.KernelIdeal.Glue

open Cert.KernelIdeal Cert.KernelIdeal.Gen Cert.KernelIdeal.Kept
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The graph preparation: sources and targets with self-loops, and the edge normalisation -/

theorem W1_src : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  after_results_simp <;> rfl

theorem W1_dst : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl

theorem W1_norm : W1 m ρ c (Proc.devRef .tc main_v27) = Cert.ReferenceIdeal.Read.val_main_v27 (F := Ideal) (m ((c : Thread nD τ).loc main_arg1)) := by
  show StableHlo.after hostOps0 (W0 m ρ c) (Proc.devRef .tc main_v27) = _
  after_results_simp <;> rfl

/-! ## The first convolution -/

/-- The first launch's output is the reference's first projection. -/
theorem W2_proj : W2 m ρ c (Proc.devRef .tc main_v28) = Cert.ReferenceIdeal.Read.val_main_v28 (F := Ideal) (m ((c : Thread nD τ).loc main_arg0)) (m ((c : Thread nD τ).loc main_arg4)) := by
  refine (W2_arr m ρ c 2).trans ((Linear0.arr (V1 m ρ) c).trans ?_)
  show Linear0.prod (W1 m ρ c (Proc.devRef .tc main_arg0)) (W1 m ρ c (Proc.devRef .tc main_arg4)) = _
  rw [W1_main_arg0, W1_main_arg4]
  rfl

/-- The first convolution's result after relu is the reference's. -/
theorem W4_conv : W4 m ρ c (Proc.devRef .tc main_v45)
    = Cert.ReferenceIdeal.Read.val_main_v45 (F := Ideal) (m ((c : Thread nD τ).loc main_arg0)) (m ((c : Thread nD τ).loc main_arg1)) (m ((c : Thread nD τ).loc main_arg4)) (m ((c : Thread nD τ).loc main_arg5)) := by
  refine (Stretch.conv1 (W2 m ρ c)).trans ?_
  rw [W2_proj, W2_main_v5, W2_main_v6, W2_main_v27, W2_main_arg5, W1_src, W1_dst, W1_norm, W1_main_arg5]
  exact (Cert.ReferenceIdeal.Conv.val_conv1 _ _ _ _).symm

/-! ## The second convolution and the pooling -/

/-- The second launch's output is the reference's second projection. -/
theorem W5_proj : W5 m ρ c (Proc.devRef .tc main_v46)
    = Cert.ReferenceIdeal.Read.val_main_v70 (F := Ideal) (m ((c : Thread nD τ).loc main_arg0)) (m ((c : Thread nD τ).loc main_arg1)) (m ((c : Thread nD τ).loc main_arg4)) (m ((c : Thread nD τ).loc main_arg5)) (m ((c : Thread nD τ).loc main_arg6)) := by
  refine (W5_arr m ρ c 2).trans ((Linear1.arr (V4 m ρ) c).trans ?_)
  show Linear1.prod (W4 m ρ c (Proc.devRef .tc main_v45)) (W4 m ρ c (Proc.devRef .tc main_arg6)) = _
  rw [W4_conv, W4_main_arg6, W2_main_arg6, W1_main_arg6]
  rfl

/-- The pooled features are the reference's. -/
theorem W6_pooled : W6 m ρ c (Proc.devRef .tc main_v74)
    = Cert.ReferenceIdeal.Read.val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (Stretch.pooled (W5 m ρ c)).trans ?_
  rw [W5_proj, W5_main_v5, W5_main_v6, W5_main_v27, W5_main_arg7, W5_main_arg2,
    W4_main_v5, W4_main_v6, W4_main_v27, W4_main_arg7, W4_main_arg2,
    W2_main_v5, W2_main_v6, W2_main_v27, W2_main_arg7, W2_main_arg2,
    W1_src, W1_dst, W1_norm, W1_main_arg7, W1_main_arg2]
  rw [Cert.ReferenceIdeal.Conv.val_pool, Cert.ReferenceIdeal.Conv.val_conv2]

/-! ## The bias vectors as rows, and the head's other operands -/

theorem W6_row9 : W6 m ρ c (Proc.devRef .tc main_v75) = shapeCast S1x64 (m ((c : Thread nD τ).loc main_arg9)) shapeCasts_S64_S1x64 := by
  show StableHlo.after hostOps2 (W5 m ρ c) (Proc.devRef .tc main_v75) = _
  after_results_simp
  rw [W5_main_arg9, W4_main_arg9, W2_main_arg9, W1_main_arg9]
  rfl

theorem W6_row11 : W6 m ρ c (Proc.devRef .tc main_v76) = shapeCast S1x64 (m ((c : Thread nD τ).loc main_arg11)) shapeCasts_S64_S1x64 := by
  show StableHlo.after hostOps2 (W5 m ρ c) (Proc.devRef .tc main_v76) = _
  after_results_simp
  rw [W5_main_arg11, W4_main_arg11, W2_main_arg11, W1_main_arg11]
  rfl

theorem W6_row13 : W6 m ρ c (Proc.devRef .tc main_v77) = shapeCast S1x64 (m ((c : Thread nD τ).loc main_arg13)) shapeCasts_S64_S1x64 := by
  show StableHlo.after hostOps2 (W5 m ρ c) (Proc.devRef .tc main_v77) = _
  after_results_simp
  rw [W5_main_arg13, W4_main_arg13, W2_main_arg13, W1_main_arg13]
  rfl

theorem W6_row15 : W6 m ρ c (Proc.devRef .tc main_v78) = shapeCast S1x1 (m ((c : Thread nD τ).loc main_arg15)) shapeCasts_S1_S1x1 := by
  show StableHlo.after hostOps2 (W5 m ρ c) (Proc.devRef .tc main_v78) = _
  after_results_simp
  rw [W5_main_arg15, W4_main_arg15, W2_main_arg15, W1_main_arg15]
  rfl

theorem W6_arg3 : W6 m ρ c (Proc.devRef .tc main_arg3) = (m ((c : Thread nD τ).loc main_arg3)) := by
  rw [W6_main_arg3, W5_main_arg3, W4_main_arg3, W2_main_arg3, W1_main_arg3]

theorem W6_arg8 : W6 m ρ c (Proc.devRef .tc main_arg8) = (m ((c : Thread nD τ).loc main_arg8)) := by
  rw [W6_main_arg8, W5_main_arg8, W4_main_arg8, W2_main_arg8, W1_main_arg8]

theorem W6_arg10 : W6 m ρ c (Proc.devRef .tc main_arg10) = (m ((c : Thread nD τ).loc main_arg10)) := by
  rw [W6_main_arg10, W5_main_arg10, W4_main_arg10, W2_main_arg10, W1_main_arg10]

theorem W6_arg12 : W6 m ρ c (Proc.devRef .tc main_arg12) = (m ((c : Thread nD τ).loc main_arg12)) := by
  rw [W6_main_arg12, W5_main_arg12, W4_main_arg12, W2_main_arg12, W1_main_arg12]

theorem W6_arg14 : W6 m ρ c (Proc.devRef .tc main_arg14) = (m ((c : Thread nD τ).loc main_arg14)) := by
  rw [W6_main_arg14, W5_main_arg14, W4_main_arg14, W2_main_arg14, W1_main_arg14]

end Cert.KernelIdeal.Glue

end
-- ==== Proof.Head.lean ====
/-
  The classifier head of the reference, as one function of the pooled node features.

  After the two graph convolutions and the mean pooling, the reference computes, from the pooled features p [1024, 64]
  and the global features: g = relu(gf · gW1 + gb1) · gW2 + gb2, joins p and g along the feature axis, and applies
  out = relu([p, g] · cW1 + cb1) · cW2 + cb2.  The pooled features enter only through the join, so the reference's
  result is this head applied to its own pooled features.
-/
import proofs.«127127_j7456063225891_1_alg».proof.Proof.Gen.ReferenceIdeal.Read

set_option maxRecDepth 16384

noncomputable section

namespace Cert.ReferenceIdeal.Head

open Cert.ReferenceIdeal Cert.ReferenceIdeal.Gen Cert.ReferenceIdeal.Read Idealize.ShloMosaic Idealize.ShloMosaic.TcCoe Idealize.SL.Sem

variable {F : FTy → Type} [FloatOps F]

/-- The head: the global-feature branch, the join with the pooled features p, and the two classifier layers. -/
def head (p : (⟨S1024x64, .f32⟩ : BufTy).Contents (Elt F)) (x3 : (⟨S1024x3, .f32⟩ : BufTy).Contents (Elt F)) (x8 : (⟨S3x64, .f32⟩ : BufTy).Contents (Elt F))
    (x9 : (⟨S64, .f32⟩ : BufTy).Contents (Elt F)) (x10 : (⟨S64x64, .f32⟩ : BufTy).Contents (Elt F)) (x11 : (⟨S64, .f32⟩ : BufTy).Contents (Elt F))
    (x12 : (⟨S128x64, .f32⟩ : BufTy).Contents (Elt F)) (x13 : (⟨S64, .f32⟩ : BufTy).Contents (Elt F)) (x14 : (⟨S64x1, .f32⟩ : BufTy).Contents (Elt F))
    (x15 : (⟨S1, .f32⟩ : BufTy).Contents (Elt F)) : (⟨S1024x1, .f32⟩ : BufTy).Contents (Elt F) :=
  addf (Host.dotGeneral dot_S1024x64_S64x1_S1024x1_1_0_0_1_n_n none
      (maximumf (addf (Host.dotGeneral dot_S1024x128_S128x64_S1024x64_1_0_0_1_n_n none
          (concatenate S1024x128 1 [⟨S1024x64, p⟩, ⟨S1024x64, val_main_v107 (F := F) x3 x8 x9 x10 x11⟩] concatenates_S1024x64_S1024x64_S1024x128_d1) x12)
        (val_main_v111 (F := F) x13)) (val_main_call2_v0 (F := F))) x14) (val_main_v116 (F := F) x15)

/-- The reference's result is the head of its pooled features. -/
theorem val_result_eq_head (x0 : (⟨S100000x100, .f32⟩ : BufTy).Contents (Elt F)) (x1 : (⟨S2x1600000, .i32⟩ : BufTy).Contents (Elt F)) (x2 : (⟨S100000, .i32⟩ : BufTy).Contents (Elt F))
    (x3 : (⟨S1024x3, .f32⟩ : BufTy).Contents (Elt F)) (x4 : (⟨S100x64, .f32⟩ : BufTy).Contents (Elt F)) (x5 : (⟨S64, .f32⟩ : BufTy).Contents (Elt F)) (x6 : (⟨S64x64, .f32⟩ : BufTy).Contents (Elt F))
    (x7 : (⟨S64, .f32⟩ : BufTy).Contents (Elt F)) (x8 : (⟨S3x64, .f32⟩ : BufTy).Contents (Elt F)) (x9 : (⟨S64, .f32⟩ : BufTy).Contents (Elt F)) (x10 : (⟨S64x64, .f32⟩ : BufTy).Contents (Elt F))
    (x11 : (⟨S64, .f32⟩ : BufTy).Contents (Elt F)) (x12 : (⟨S128x64, .f32⟩ : BufTy).Contents (Elt F)) (x13 : (⟨S64, .f32⟩ : BufTy).Contents (Elt F)) (x14 : (⟨S64x1, .f32⟩ : BufTy).Contents (Elt F))
    (x15 : (⟨S1, .f32⟩ : BufTy).Contents (Elt F)) :
    val_main_v117 (F := F) x0 x1 x2 x3 x4 x5 x6 x7 x8 x9 x10 x11 x12 x13 x14 x15
      = head (val_main_v98 (F := F) x0 x1 x2 x4 x5 x6 x7) x3 x8 x9 x10 x11 x12 x13 x14 x15 := rfl

end Cert.ReferenceIdeal.Head

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«127127_j7456063225891_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«127127_j7456063225891_1_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.Final.lean ====
/-
  The classifier head inside the last launch is the reference's head.

  The last launch has one grid point and every window's block is its whole array.  Its body computes, from the
  pooled features p and the global features gf,  g = max(gf · gW1 + b9, 0) · gW2 + b11,  joins p and g along the
  feature axis, and returns  max([p, g] · cW1 + b13, 0) · cW2 + b15,  every product a matrix-unit product into a zero
  accumulator after format changes that are the identity over the extended reals, and every bias one row laid along
  the rows.  The reference computes the same layers with host products and the bias vector broadcast to a row and
  then along the rows.  Entry by entry each layer is  Σ n, X (p, n) * W (n, q) + b q  on both sides, so the layers
  agree as whole arrays, one after the other, and the output array after the launch is the reference's head of the
  arrays the launch finds.
-/
import proofs.«127127_j7456063225891_1_alg».proof.Proof.Gen.KernelIdeal.Frame
import proofs.«127127_j7456063225891_1_alg».proof.Proof.Head
import proofs.«127127_j7456063225891_1_alg».proof.Proof.LibDenseLayer
import proofs.«127127_j7456063225891_1_alg».proof.Proof.LibHostLayer
import Idealize.ShloMosaic.Lib.Pipeline.Value
import Idealize.ShloMosaic.Lib.ValueLayout

set_option maxRecDepth 16384

noncomputable section

namespace Cert.KernelIdeal.Final

open Cert.KernelIdeal Cert.KernelIdeal.Gen
open Idealize.ShloMosaic Idealize.ShloMosaic.TcCoe Idealize.ShloMosaic.ValueIdx Idealize.ShloMosaic.DenseBlock Idealize.SL.Sem
open Idealize.ShloMosaic.Pipeline (Dat Cfg Window)

/-! ## One layer, as whole arrays -/

section Generic
variable {K N Q : Nat}

/-- One layer: the kernel's product into zero plus a bias row laid along the rows is the host's product plus the bias
    vector broadcast to a row and then along the rows, when the row holds the vector. -/
theorem layer_eq (wf : DotDims.WF ⟨2, ![K, N]⟩ ⟨2, ![N, Q]⟩ ⟨2, ![K, Q]⟩ [1] [0] [0] [1] [] [])
    (X : FVec Ideal ⟨2, ![K, N]⟩ .f32) (W : FVec Ideal ⟨2, ![N, Q]⟩ .f32) (b : FVec Ideal ⟨1, ![Q]⟩ .f32)
    (brow : FVec Ideal ⟨2, ![1, Q]⟩ .f32) (hrow : ∀ q : Fin Q, brow (ix2 (0 : Fin 1) q) = b (ix1 q))
    (hb : (⟨2, ![1, Q]⟩ : Shape).Broadcasts ⟨2, ![K, Q]⟩)
    (h1 : (⟨1, ![Q]⟩ : Shape).BroadcastsInDim ⟨2, ![1, Q]⟩ ![1])
    (h2 : (⟨2, ![1, Q]⟩ : Shape).BroadcastsInDim ⟨2, ![K, Q]⟩ ![0, 1]) :
    addf (matmul (mmDims K N Q wf) none (truncf .bf16 X (by decide)) (truncf .bf16 W (by decide))
        (constant ⟨2, ![K, Q]⟩ .f32 0x00000000#32)) (broadcastTo ⟨2, ![K, Q]⟩ brow hb)
      = addf (Host.dotGeneral (F := Ideal) (mmDims K N Q wf) none X W)
          (broadcastInDim ⟨2, ![K, Q]⟩ ![0, 1] h2 (broadcastInDim ⟨2, ![1, Q]⟩ ![1] h1 b)) := by
  funext i
  obtain ⟨p, q, rfl⟩ : ∃ (p : Fin K) (q : Fin Q), i = ix2 p q := ⟨i 0, i 1, eq_ix2 i⟩
  refine (DenseLayer.affine_apply wf (φ₁ := .bf16) (φ₂ := .bf16) X W brow hb p q).trans ?_
  rw [hrow q]
  exact (HostLayer.layer_apply wf X W b h1 h2 p q).symm

/-- A bias vector reshaped to one row and read through the body's trivial reshape holds the vector. -/
theorem row_eq (b : FVec Ideal ⟨1, ![Q]⟩ .f32) (h : (⟨1, ![Q]⟩ : Shape).ShapeCasts ⟨2, ![1, Q]⟩)
    (h' : (⟨2, ![1, Q]⟩ : Shape).ShapeCasts ⟨2, ![1, Q]⟩) (q : Fin Q) :
    shapeCast ⟨2, ![1, Q]⟩ (shapeCast ⟨2, ![1, Q]⟩ b h) h' (ix2 (0 : Fin 1) q) = b (ix1 q) := by
  rw [shapeCast_self]
  exact shapeCast_a_1a_apply b h 0 q

end Generic

/-- The splat of zero the body clamps with is the constant zero the reference broadcasts. -/
theorem zero_eq : broadcast S1024x64 (Scalar.ofBits (F := Ideal) .f32 0x00000000#32)
    = Cert.ReferenceIdeal.Read.val_main_call1_v0 (F := Ideal) := by
  funext i
  rw [Cert.ReferenceIdeal.Read.val_main_call1_v0_apply]
  rfl

/-- The same for the second clamp. -/
theorem zero_eq' : broadcast S1024x64 (Scalar.ofBits (F := Ideal) .f32 0x00000000#32)
    = Cert.ReferenceIdeal.Read.val_main_call2_v0 (F := Ideal) := by
  funext i
  rw [Cert.ReferenceIdeal.Read.val_main_call2_v0_apply]
  rfl

/-! ## The body's arithmetic is the head -/

/-- What the body stores, from the whole arrays it reads with the bias rows holding the bias vectors, is the
    reference's head: layer by layer as whole arrays, the join by congruence. -/
theorem body_eq (gf : FVec Ideal S1024x3 .f32) (p : FVec Ideal S1024x64 .f32) (w1 : FVec Ideal S3x64 .f32)
    (w2 : FVec Ideal S64x64 .f32) (w3 : FVec Ideal S128x64 .f32) (w4 : FVec Ideal S64x1 .f32)
    (x9 x11 x13 : FVec Ideal S64 .f32) (x15 : FVec Ideal S1 .f32) :
    k2_pay1 (F := Ideal) (k2_pay2 w4) (k2_pay3 gf w1 (shapeCast S1x64 x9 shapeCasts_S64_S1x64) w2 (shapeCast S1x64 x11 shapeCasts_S64_S1x64) p w3
        (shapeCast S1x64 x13 shapeCasts_S64_S1x64)) (constant S1024x1 .f32 0x00000000#32) (shapeCast S1x1 x15 shapeCasts_S1_S1x1)
      = Cert.ReferenceIdeal.Head.head (F := Ideal) p gf w1 x9 w2 x11 w3 x13 w4 x15 := by
  -- the first layer of the global branch, clamped at zero
  have e1 : maximumf (addf (matmul dot_S1024x3_S3x64_S1024x64_1_0_0_1_n_n none (truncf .bf16 gf bitsLt_bf16_f32) (truncf .bf16 w1 bitsLt_bf16_f32)
          (constant S1024x64 .f32 0x00000000#32))
        (broadcastTo S1024x64 (shapeCast S1x64 (shapeCast S1x64 x9 shapeCasts_S64_S1x64) shapeCasts_S1x64_S1x64) broadcasts_S1x64_S1024x64))
        (broadcast S1024x64 (Scalar.ofBits (F := Ideal) .f32 0x00000000#32))
      = Cert.ReferenceIdeal.Read.val_main_v103 (F := Ideal) gf w1 x9 :=
    congrArg₂ maximumf (layer_eq (K := 1024) (N := 3) (Q := 64) Facts₀.dot_S1024x3_S3x64_S1024x64_1_0_0_1_n_n_wf gf w1 x9 _
      (row_eq x9 _ _) _ Cert.ReferenceIdeal.Gen.bcast_S64_S1x64_1 Cert.ReferenceIdeal.Gen.bcast_S1x64_S1024x64_0_1) zero_eq
  -- its second layer
  have e2 : addf (matmul dot_S1024x64_S64x64_S1024x64_1_0_0_1_n_n none
          (truncf .bf16 (Cert.ReferenceIdeal.Read.val_main_v103 (F := Ideal) gf w1 x9) bitsLt_bf16_f32) (truncf .bf16 w2 bitsLt_bf16_f32)
          (constant S1024x64 .f32 0x00000000#32))
        (broadcastTo S1024x64 (shapeCast S1x64 (shapeCast S1x64 x11 shapeCasts_S64_S1x64) shapeCasts_S1x64_S1x64) broadcasts_S1x64_S1024x64)
      = Cert.ReferenceIdeal.Read.val_main_v107 (F := Ideal) gf w1 x9 w2 x11 :=
    layer_eq (K := 1024) (N := 64) (Q := 64) Facts₀.dot_S1024x64_S64x64_S1024x64_1_0_0_1_n_n_wf
      (Cert.ReferenceIdeal.Read.val_main_v103 (F := Ideal) gf w1 x9) w2 x11 _
      (row_eq x11 _ _) _ Cert.ReferenceIdeal.Gen.bcast_S64_S1x64_1 Cert.ReferenceIdeal.Gen.bcast_S1x64_S1024x64_0_1
  -- the first classifier layer on the joined features, clamped at zero
  have e3 : ∀ cat : FVec Ideal S1024x128 .f32,
      maximumf (addf (matmul dot_S1024x128_S128x64_S1024x64_1_0_0_1_n_n none (truncf .bf16 cat bitsLt_bf16_f32) (truncf .bf16 w3 bitsLt_bf16_f32)
          (constant S1024x64 .f32 0x00000000#32))
        (broadcastTo S1024x64 (shapeCast S1x64 (shapeCast S1x64 x13 shapeCasts_S64_S1x64) shapeCasts_S1x64_S1x64) broadcasts_S1x64_S1024x64))
        (broadcast S1024x64 (Scalar.ofBits (F := Ideal) .f32 0x00000000#32))
      = maximumf (addf (Host.dotGeneral (F := Ideal) Cert.ReferenceIdeal.dot_S1024x128_S128x64_S1024x64_1_0_0_1_n_n none cat w3)
          (Cert.ReferenceIdeal.Read.val_main_v111 (F := Ideal) x13)) (Cert.ReferenceIdeal.Read.val_main_call2_v0 (F := Ideal)) := fun cat =>
    congrArg₂ maximumf (layer_eq (K := 1024) (N := 128) (Q := 64) Facts₀.dot_S1024x128_S128x64_S1024x64_1_0_0_1_n_n_wf cat w3 x13 _
      (row_eq x13 _ _) _ Cert.ReferenceIdeal.Gen.bcast_S64_S1x64_1 Cert.ReferenceIdeal.Gen.bcast_S1x64_S1024x64_0_1) zero_eq'
  -- the last layer
  have e4 : ∀ c1 : FVec Ideal S1024x64 .f32,
      addf (matmul dot_S1024x64_S64x1_S1024x1_1_0_0_1_n_n none (truncf .bf16 c1 bitsLt_bf16_f32) (truncf .bf16 w4 bitsLt_bf16_f32)
          (constant S1024x1 .f32 0x00000000#32))
        (broadcastTo S1024x1 (shapeCast S1x1 (shapeCast S1x1 x15 shapeCasts_S1_S1x1) shapeCasts_S1x1_S1x1) broadcasts_S1x1_S1024x1)
      = addf (Host.dotGeneral (F := Ideal) Cert.ReferenceIdeal.dot_S1024x64_S64x1_S1024x1_1_0_0_1_n_n none c1 w4)
          (Cert.ReferenceIdeal.Read.val_main_v116 (F := Ideal) x15) := fun c1 =>
    layer_eq (K := 1024) (N := 64) (Q := 1) Facts₀.dot_S1024x64_S64x1_S1024x1_1_0_0_1_n_n_wf c1 w4 x15 _
      (row_eq x15 _ _) _ Cert.ReferenceIdeal.Gen.bcast_S1_S1x1_1 Cert.ReferenceIdeal.Gen.bcast_S1x1_S1024x1_0_1
  unfold k2_pay1 k2_pay2 k2_pay3 Cert.ReferenceIdeal.Head.head
  dsimp only
  rw [e1, e2, shapeCast_self p, e3, e4]

/-! ## From the one block to the array -/

theorem hz : (![0, 0] : Fin 2 → Nat) = fun _ => 0 := funext fun a => by fin_cases a <;> rfl

/-- Every window's block index is (0, 0) at the grid's one point: each block is its whole array. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

section
variable (V : (c : Dev nD) → (b : Ref sig .tc) → Buf (Elt Ideal) ((c : Thread nD τ).loc b))

/-- Window 0's block at the one point is its whole array. -/
theorem blk0 (c : Dev nD) (t : Fin cfg2.N) : iblk2 V c 0 t = V c main_arg3 := by
  obtain ⟨e0, e1, e2, e3, e4, e5, e6, e7, e8, e9, e10, e11, e12, e13, e14, e15, e16, e17, e18, e19, e20, e21⟩ := idx_facts t
  funext j
  show V c main_arg3 (((cfg2.win 0).blk t).view.emb j) = V c main_arg3 j
  refine congrArg (V c main_arg3) ?_
  funext a; apply Fin.ext
  match a with
  | ⟨0, _⟩ => show win2_0.index t (0 : Fin 2) * 1024 + 1 * (j 0).val = (j 0).val; omega
  | ⟨1, _⟩ => show win2_0.index t (1 : Fin 2) * 3 + 1 * (j 1).val = (j 1).val; omega

/-- Window 1's block at the one point is its whole array. -/
theorem blk1 (c : Dev nD) (t : Fin cfg2.N) : iblk2 V c 1 t = V c main_v74 := by
  obtain ⟨e0, e1, e2, e3, e4, e5, e6, e7, e8, e9, e10, e11, e12, e13, e14, e15, e16, e17, e18, e19, e20, e21⟩ := idx_facts t
  funext j
  show V c main_v74 (((cfg2.win 1).blk t).view.emb j) = V c main_v74 j
  refine congrArg (V c main_v74) ?_
  funext a; apply Fin.ext
  match a with
  | ⟨0, _⟩ => show win2_1.index t (0 : Fin 2) * 1024 + 1 * (j 0).val = (j 0).val; omega
  | ⟨1, _⟩ => show win2_1.index t (1 : Fin 2) * 64 + 1 * (j 1).val = (j 1).val; omega

/-- Window 2's block at the one point is its whole array. -/
theorem blk2 (c : Dev nD) (t : Fin cfg2.N) : iblk2 V c 2 t = V c main_arg8 := by
  obtain ⟨e0, e1, e2, e3, e4, e5, e6, e7, e8, e9, e10, e11, e12, e13, e14, e15, e16, e17, e18, e19, e20, e21⟩ := idx_facts t
  funext j
  show V c main_arg8 (((cfg2.win 2).blk t).view.emb j) = V c main_arg8 j
  refine congrArg (V c main_arg8) ?_
  funext a; apply Fin.ext
  match a with
  | ⟨0, _⟩ => show win2_2.index t (0 : Fin 2) * 3 + 1 * (j 0).val = (j 0).val; omega
  | ⟨1, _⟩ => show win2_2.index t (1 : Fin 2) * 64 + 1 * (j 1).val = (j 1).val; omega

/-- Window 3's block at the one point is its whole array. -/
theorem blk3 (c : Dev nD) (t : Fin cfg2.N) : iblk2 V c 3 t = V c main_v75 := by
  obtain ⟨e0, e1, e2, e3, e4, e5, e6, e7, e8, e9, e10, e11, e12, e13, e14, e15, e16, e17, e18, e19, e20, e21⟩ := idx_facts t
  funext j
  show V c main_v75 (((cfg2.win 3).blk t).view.emb j) = V c main_v75 j
  refine congrArg (V c main_v75) ?_
  funext a; apply Fin.ext
  match a with
  | ⟨0, _⟩ => show win2_3.index t (0 : Fin 2) * 1 + 1 * (j 0).val = (j 0).val; omega
  | ⟨1, _⟩ => show win2_3.index t (1 : Fin 2) * 64 + 1 * (j 1).val = (j 1).val; omega

/-- Window 4's block at the one point is its whole array. -/
theorem blk4 (c : Dev nD) (t : Fin cfg2.N) : iblk2 V c 4 t = V c main_arg10 := by
  obtain ⟨e0, e1, e2, e3, e4, e5, e6, e7, e8, e9, e10, e11, e12, e13, e14, e15, e16, e17, e18, e19, e20, e21⟩ := idx_facts t
  funext j
  show V c main_arg10 (((cfg2.win 4).blk t).view.emb j) = V c main_arg10 j
  refine congrArg (V c main_arg10) ?_
  funext a; apply Fin.ext
  match a with
  | ⟨0, _⟩ => show win2_4.index t (0 : Fin 2) * 64 + 1 * (j 0).val = (j 0).val; omega
  | ⟨1, _⟩ => show win2_4.index t (1 : Fin 2) * 64 + 1 * (j 1).val = (j 1).val; omega

/-- Window 5's block at the one point is its whole array. -/
theorem blk5 (c : Dev nD) (t : Fin cfg2.N) : iblk2 V c 5 t = V c main_v76 := by
  obtain ⟨e0, e1, e2, e3, e4, e5, e6, e7, e8, e9, e10, e11, e12, e13, e14, e15, e16, e17, e18, e19, e20, e21⟩ := idx_facts t
  funext j
  show V c main_v76 (((cfg2.win 5).blk t).view.emb j) = V c main_v76 j
  refine congrArg (V c main_v76) ?_
  funext a; apply Fin.ext
  match a with
  | ⟨0, _⟩ => show win2_5.index t (0 : Fin 2) * 1 + 1 * (j 0).val = (j 0).val; omega
  | ⟨1, _⟩ => show win2_5.index t (1 : Fin 2) * 64 + 1 * (j 1).val = (j 1).val; omega

/-- Window 6's block at the one point is its whole array. -/
theorem blk6 (c : Dev nD) (t : Fin cfg2.N) : iblk2 V c 6 t = V c main_arg12 := by
  obtain ⟨e0, e1, e2, e3, e4, e5, e6, e7, e8, e9, e10, e11, e12, e13, e14, e15, e16, e17, e18, e19, e20, e21⟩ := idx_facts t
  funext j
  show V c main_arg12 (((cfg2.win 6).blk t).view.emb j) = V c main_arg12 j
  refine congrArg (V c main_arg12) ?_
  funext a; apply Fin.ext
  match a with
  | ⟨0, _⟩ => show win2_6.index t (0 : Fin 2) * 128 + 1 * (j 0).val = (j 0).val; omega
  | ⟨1, _⟩ => show win2_6.index t (1 : Fin 2) * 64 + 1 * (j 1).val = (j 1).val; omega

/-- Window 7's block at the one point is its whole array. -/
theorem blk7 (c : Dev nD) (t : Fin cfg2.N) : iblk2 V c 7 t = V c main_v77 := by
  obtain ⟨e0, e1, e2, e3, e4, e5, e6, e7, e8, e9, e10, e11, e12, e13, e14, e15, e16, e17, e18, e19, e20, e21⟩ := idx_facts t
  funext j
  show V c main_v77 (((cfg2.win 7).blk t).view.emb j) = V c main_v77 j
  refine congrArg (V c main_v77) ?_
  funext a; apply Fin.ext
  match a with
  | ⟨0, _⟩ => show win2_7.index t (0 : Fin 2) * 1 + 1 * (j 0).val = (j 0).val; omega
  | ⟨1, _⟩ => show win2_7.index t (1 : Fin 2) * 64 + 1 * (j 1).val = (j 1).val; omega

/-- Window 8's block at the one point is its whole array. -/
theorem blk8 (c : Dev nD) (t : Fin cfg2.N) : iblk2 V c 8 t = V c main_arg14 := by
  obtain ⟨e0, e1, e2, e3, e4, e5, e6, e7, e8, e9, e10, e11, e12, e13, e14, e15, e16, e17, e18, e19, e20, e21⟩ := idx_facts t
  funext j
  show V c main_arg14 (((cfg2.win 8).blk t).view.emb j) = V c main_arg14 j
  refine congrArg (V c main_arg14) ?_
  funext a; apply Fin.ext
  match a with
  | ⟨0, _⟩ => show win2_8.index t (0 : Fin 2) * 64 + 1 * (j 0).val = (j 0).val; omega
  | ⟨1, _⟩ => show win2_8.index t (1 : Fin 2) * 1 + 1 * (j 1).val = (j 1).val; omega

/-- Window 9's block at the one point is its whole array. -/
theorem blk9 (c : Dev nD) (t : Fin cfg2.N) : iblk2 V c 9 t = V c main_v78 := by
  obtain ⟨e0, e1, e2, e3, e4, e5, e6, e7, e8, e9, e10, e11, e12, e13, e14, e15, e16, e17, e18, e19, e20, e21⟩ := idx_facts t
  funext j
  show V c main_v78 (((cfg2.win 9).blk t).view.emb j) = V c main_v78 j
  refine congrArg (V c main_v78) ?_
  funext a; apply Fin.ext
  match a with
  | ⟨0, _⟩ => show win2_9.index t (0 : Fin 2) * 1 + 1 * (j 0).val = (j 0).val; omega
  | ⟨1, _⟩ => show win2_9.index t (1 : Fin 2) * 1 + 1 * (j 1).val = (j 1).val; omega

/-- What the body leaves in the output window's buffer at the one point is the head of the arrays the launch finds. -/
theorem after_eq (c : Dev nD) (x9 x11 x13 : FVec Ideal S64 .f32) (x15 : FVec Ideal S1 .f32)
    (h9 : V c main_v75 = shapeCast S1x64 x9 shapeCasts_S64_S1x64)
    (h11 : V c main_v76 = shapeCast S1x64 x11 shapeCasts_S64_S1x64)
    (h13 : V c main_v77 = shapeCast S1x64 x13 shapeCasts_S64_S1x64)
    (h15 : V c main_v78 = shapeCast S1x1 x15 shapeCasts_S1_S1x1) (t : Fin cfg2.N) :
    (dat2 V c).after 10 t = Cert.ReferenceIdeal.Head.head (F := Ideal) (V c main_v74) (V c main_arg3) (V c main_arg8) x9 (V c main_arg10) x11
        (V c main_arg12) x13 (V c main_arg14) x15 := by
  rw [after2_10]
  unfold out2_10
  rw [View.canon_unit_zero hz]
  simp only [View.ld_unit_zero (S := S1024x3) hz, View.ld_unit_zero (S := S1024x64) hz, View.ld_unit_zero (S := S3x64) hz,
    View.ld_unit_zero (S := S1x64) hz, View.ld_unit_zero (S := S64x64) hz, View.ld_unit_zero (S := S128x64) hz,
    View.ld_unit_zero (S := S64x1) hz, View.ld_unit_zero (S := S1x1) hz]
  rw [blk0 V c t, blk1 V c t, blk2 V c t, blk3 V c t, blk4 V c t, blk5 V c t, blk6 V c t, blk7 V c t, blk8 V c t, blk9 V c t, h9, h11, h13, h15]
  exact body_eq (V c main_arg3) (V c main_v74) (V c main_arg8) (V c main_arg10) (V c main_arg12) (V c main_arg14) x9 x11 x13 x15

/-- What the one point writes back is the block, the whole array, of the head of the arrays the launch finds. -/
theorem flushed_eq (c : Dev nD) (x9 x11 x13 : FVec Ideal S64 .f32) (x15 : FVec Ideal S1 .f32)
    (h9 : V c main_v75 = shapeCast S1x64 x9 shapeCasts_S64_S1x64)
    (h11 : V c main_v76 = shapeCast S1x64 x11 shapeCasts_S64_S1x64)
    (h13 : V c main_v77 = shapeCast S1x64 x13 shapeCasts_S64_S1x64)
    (h15 : V c main_v78 = shapeCast S1x1 x15 shapeCasts_S1_S1x1) (t : Fin cfg2.N) :
    (dat2 V c).flushed 10 t = ((cfg2.win 10).blk t).view.read (Elt Ideal)
      (Cert.ReferenceIdeal.Head.head (F := Ideal) (V c main_v74) (V c main_arg3) (V c main_arg8) x9 (V c main_arg10) x11
        (V c main_arg12) x13 (V c main_arg14) x15) := by
  show (cfg2.win 10).cut (grid2.coords t) ((dat2 V c).after 10 t) = _
  rw [after_eq V c x9 x11 x13 x15 h9 h11 h13 h15 t]
  obtain ⟨e0, e1, e2, e3, e4, e5, e6, e7, e8, e9, e10, e11, e12, e13, e14, e15, e16, e17, e18, e19, e20, e21⟩ := idx_facts t
  funext j
  refine congrArg (Cert.ReferenceIdeal.Head.head (F := Ideal) (V c main_v74) (V c main_arg3) (V c main_arg8) x9 (V c main_arg10) x11
        (V c main_arg12) x13 (V c main_arg14) x15) ?_
  funext a; apply Fin.ext
  match a with
  | ⟨0, _⟩ => show (j 0).val = win2_10.index t (0 : Fin 2) * 1024 + 1 * (j 0).val; omega
  | ⟨1, _⟩ => show (j 1).val = win2_10.index t (1 : Fin 2) * 1 + 1 * (j 1).val; omega

/-- An index of the output array is in the point's block iff each coordinate is in the block's range on its axis. -/
theorem mem_blk (t : Fin cfg2.N) (i : S1024x1.Idx) :
    i ∈ ((cfg2.win 10).blk t).view.set ↔ ∀ a : Fin 2, win2_10.index t a * S1024x1.size a ≤ (i a).val ∧ (i a).val < win2_10.index t a * S1024x1.size a + S1024x1.size a := by
  show i ∈ ((View.whole main_v79).slice (win2_10.rect t)).set ↔ _
  rw [View.set_slice_whole, Rect.mem_set_unit]
  exact Iff.rfl

/-- The one block is the whole output array. -/
theorem cover (i : S1024x1.Idx) :
    ∃ t : Fin cfg2.N, (cfg2.win 10).flush t = true ∧ i ∈ ((cfg2.win 10).blk t).view.set := by
  have hi0 : (i 0).val < 1024 := (i 0).isLt
  have hi1 : (i 1).val < 1 := (i 1).isLt
  obtain ⟨e0, e1, e2, e3, e4, e5, e6, e7, e8, e9, e10, e11, e12, e13, e14, e15, e16, e17, e18, e19, e20, e21⟩ := idx_facts t2_0
  refine ⟨t2_0, flush2_10 t2_0, ?_⟩
  rw [mem_blk]
  intro a
  match a with
  | ⟨0, _⟩ => show win2_10.index t2_0 (0 : Fin 2) * 1024 ≤ (i 0).val ∧ (i 0).val < win2_10.index t2_0 (0 : Fin 2) * 1024 + 1024; omega
  | ⟨1, _⟩ => show win2_10.index t2_0 (1 : Fin 2) * 1 ≤ (i 1).val ∧ (i 1).val < win2_10.index t2_0 (1 : Fin 2) * 1 + 1; omega

/-- The output array after the last launch is the reference's head of the arrays the launch finds, the bias rows
    holding the bias vectors. -/
theorem arr (c : Dev nD) (x9 x11 x13 : FVec Ideal S64 .f32) (x15 : FVec Ideal S1 .f32)
    (h9 : V c main_v75 = shapeCast S1x64 x9 shapeCasts_S64_S1x64)
    (h11 : V c main_v76 = shapeCast S1x64 x11 shapeCasts_S64_S1x64)
    (h13 : V c main_v77 = shapeCast S1x64 x13 shapeCasts_S64_S1x64)
    (h15 : V c main_v78 = shapeCast S1x1 x15 shapeCasts_S1_S1x1) :
    (dat2 V c).arrAt 10 cfg2.N
      = Cert.ReferenceIdeal.Head.head (F := Ideal) (V c main_v74) (V c main_arg3) (V c main_arg8) x9 (V c main_arg10) x11
          (V c main_arg12) x13 (V c main_arg14) x15 :=
  (dat2 V c).arrAt_eq_of_cover 10 _ (fun t _ => flushed_eq V c x9 x11 x13 x15 h9 h11 h13 h15 t) (cover)

end

end Cert.KernelIdeal.Final

end
-- ==== Proof.Result.lean ====
/-
  The idealized kernel's result is the reference's head of the reference's pooled features.

  The last launch computes the classifier head of its operands as it finds them; its pooled-features operand is the
  reference's pooled features of the same arguments, its bias rows are the bias vectors laid as rows, and its other
  operands are argument arrays.
-/
import proofs.«127127_j7456063225891_1_alg».proof.Proof.Glue
import proofs.«127127_j7456063225891_1_alg».proof.Proof.Final
import proofs.«127127_j7456063225891_1_alg».proof.Proof.Head

set_option maxRecDepth 16384

noncomputable section

namespace Cert.KernelIdeal.Result

open Cert.KernelIdeal Cert.KernelIdeal.Gen Cert.KernelIdeal.Glue
open Idealize.ShloMosaic Idealize.ShloMosaic.TcCoe Idealize.SL.Sem

variable (m : (ℓ : Loc nD τ sig) → Buf (Elt Ideal) ℓ) (ρ : Dev nD → PrngReg) (c : Dev nD)

/-- The result buffer at the last boundary, as a function of the argument arrays. -/
theorem result : W7 m ρ c (Proc.devRef .tc main_v79)
    = Cert.ReferenceIdeal.Head.head (F := Ideal)
        (Cert.ReferenceIdeal.Read.val_main_v98 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)))
        (m ((c : Thread nD τ).loc main_arg3)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W7_arr m ρ c 10).trans ((Final.arr (V6 m ρ) c (m ((c : Thread nD τ).loc main_arg9)) (m ((c : Thread nD τ).loc main_arg11)) (m ((c : Thread nD τ).loc main_arg13)) (m ((c : Thread nD τ).loc main_arg15))
    (W6_row9 m ρ c) (W6_row11 m ρ c) (W6_row13 m ρ c) (W6_row15 m ρ c)).trans ?_)
  show Cert.ReferenceIdeal.Head.head (F := Ideal) (W6 m ρ c (Proc.devRef .tc main_v74)) (W6 m ρ c (Proc.devRef .tc main_arg3))
      (W6 m ρ c (Proc.devRef .tc main_arg8)) _ (W6 m ρ c (Proc.devRef .tc main_arg10)) _ (W6 m ρ c (Proc.devRef .tc main_arg12)) _
      (W6 m ρ c (Proc.devRef .tc main_arg14)) _ = _
  rw [W6_pooled, W6_arg3, W6_arg8, W6_arg10, W6_arg12, W6_arg14]

end Cert.KernelIdeal.Result

end
-- ==== Proof.lean ====
/-
  A two-layer graph convolution with mean pooling and a classifier head: the kernel's program against the plain jnp
  reference, over the extended reals.

  The kernel's program runs the two linear projections x · W1 and h1 · W2 and the final head (the global-feature MLP, the
  join with the pooled node features, the classifier MLP) as three kernel launches, and keeps the irregular part — the
  self-loops, the symmetric degree normalisation, the gather / scale / scatter-add aggregation, the bias, relu, and the
  mean pooling by graph — as host operations, the same ones the reference applies.  Inside the launches the operands are
  rounded to a narrower float format before each matrix product; over the extended reals a change of format is the
  identity and a matrix unit's accumulation into zero is the plain sum, so a projection computed block of 5000 rows by
  block of 5000 rows is the reference's whole product (Linear0, Linear1), and the head computed in one block is the
  reference's head of the same operands (Final).  The host stretches between the launches then compute the reference's
  own intermediates (Glue), and the result buffer ends holding the reference's head of the reference's pooled features
  (Result).  No algebraic law beyond reading a product at an index is used, so finiteness of the inputs is never
  opened.  The ideal pass rewrote nothing, so the idealization claim is trivial.
-/
import proofs.«127127_j7456063225891_1_alg».proof.Defs
import proofs.«127127_j7456063225891_1_alg».proof.Proof.Gen.Kernel
import proofs.«127127_j7456063225891_1_alg».proof.Proof.Gen.Kernel.Skeleton
import proofs.«127127_j7456063225891_1_alg».proof.Proof.Gen.Kernel.Launch
import proofs.«127127_j7456063225891_1_alg».proof.Proof.Gen.Kernel.Points
import proofs.«127127_j7456063225891_1_alg».proof.Proof.Gen.Kernel.Frame
import proofs.«127127_j7456063225891_1_alg».proof.Proof.Gen.KernelIdeal
import proofs.«127127_j7456063225891_1_alg».proof.Proof.Gen.KernelIdeal.Skeleton
import proofs.«127127_j7456063225891_1_alg».proof.Proof.Gen.KernelIdeal.Launch
import proofs.«127127_j7456063225891_1_alg».proof.Proof.Gen.KernelIdeal.Points
import proofs.«127127_j7456063225891_1_alg».proof.Proof.Gen.KernelIdeal.Frame
import proofs.«127127_j7456063225891_1_alg».proof.Proof.Gen.ReferenceIdeal
import proofs.«127127_j7456063225891_1_alg».proof.Proof.Gen.ReferenceIdeal.Run
import proofs.«127127_j7456063225891_1_alg».proof.Proof.Gen.ReferenceIdeal.Read
import proofs.«127127_j7456063225891_1_alg».proof.Proof.Gen.Pre_finite_inputs
import proofs.«127127_j7456063225891_1_alg».proof.Proof.KernelRun
import proofs.«127127_j7456063225891_1_alg».proof.Proof.Result
import proofs.«127127_j7456063225891_1_alg».proof.Proof.Head
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end with the reference's head of the reference's pooled features of the shared arguments. -/
theorem algebraic : Cert.algebraic_KernelIdeal_ReferenceIdeal := by
  intro m ρ m' ρ' _ hagree
  refine ⟨fun c => Cert.ReferenceIdeal.Head.head (F := Ideal)
      (Cert.ReferenceIdeal.Read.val_main_v98 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Result.result m ρ c), (h c).2⟩)
      (Cert.KernelIdeal.ResultRun.run m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12, a13, a14, a15⟩ := hagree c
    rw [(h c).1, Cert.ReferenceIdeal.Read.val_main_v117_eq, Cert.ReferenceIdeal.Head.val_result_eq_head,
      a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
